-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x128 : Shape := ⟨3, ![1, 50000, 128]⟩
abbrev S2x800000 : Shape := ⟨2, ![2, 800000]⟩
abbrev S_ : Shape := ⟨0, ![]⟩

class Facts : Prop where
  bcast_S_S1x50000x128 : S_.BroadcastsInDim S1x50000x128 (![] : Fin 0 → Fin S1x50000x128.rank)
  reducesTo_S1x50000x128_S_d0_1_2 : S1x50000x128.ReducesTo [0, 1, 2] S_
  h_S_ : 0 < S_.numel

variable [Facts]

def fn {F : FTy → Type} [FloatOps F] (main_arg0 : FVec F S1x50000x128 .f32) (main_arg1 : FVec F S1x50000x128 .f32) (main_arg2 : FVec F S1x50000x128 .f32) (main_arg3 : IVec S2x800000 32) : IVec S_ 1 :=
  let main_v0 : FVec F S1x50000x128 .f32 := Host.absf main_arg0
  let main_cst : FVec F S_ .f32 := constant S_ .f32 0x7F800000#32
  let main_v1 : FVec F S1x50000x128 .f32 := broadcastInDim S1x50000x128 ![] bcast_S_S1x50000x128 main_cst
  let main_v2 : IVec S1x50000x128 1 := cmpf .olt main_v0 main_v1
  let main_c : IVec S_ 1 := constantI S_ 1 1#1
  let main_v3 : IVec S_ 1 := (fun x v => Host.reduce IntOp.andi x v reducesTo_S1x50000x128_S_d0_1_2 h_S_) main_v2 main_c
  let main_v4 : FVec F S1x50000x128 .f32 := Host.absf main_arg1
  let main_cst_0 : FVec F S_ .f32 := constant S_ .f32 0x7F800000#32
  let main_v5 : FVec F S1x50000x128 .f32 := broadcastInDim S1x50000x128 ![] bcast_S_S1x50000x128 main_cst_0
  let main_v6 : IVec S1x50000x128 1 := cmpf .olt main_v4 main_v5
  let main_c_1 : IVec S_ 1 := constantI S_ 1 1#1
  let main_v7 : IVec S_ 1 := (fun x v => Host.reduce IntOp.andi x v reducesTo_S1x50000x128_S_d0_1_2 h_S_) main_v6 main_c_1
  let main_v8 : IVec S_ 1 := andi main_v3 main_v7
  let main_v9 : FVec F S1x50000x128 .f32 := Host.absf main_arg2
  let main_cst_2 : FVec F S_ .f32 := constant S_ .f32 0x7F800000#32
  let main_v10 : FVec F S1x50000x128 .f32 := broadcastInDim S1x50000x128 ![] bcast_S_S1x50000x128 main_cst_2
  let main_v11 : IVec S1x50000x128 1 := cmpf .olt main_v9 main_v10
  let main_c_3 : IVec S_ 1 := constantI S_ 1 1#1
  let main_v12 : IVec S_ 1 := (fun x v => Host.reduce IntOp.andi x v reducesTo_S1x50000x128_S_d0_1_2 h_S_) main_v11 main_c_3
  let main_v13 : IVec S_ 1 := andi main_v8 main_v12
  main_v13
-- ==== Kernel.lean ====
abbrev S1x50000x128 : Shape := ⟨3, ![1, 50000, 128]⟩
abbrev S2x800000 : Shape := ⟨2, ![2, 800000]⟩
abbrev S128x8 : Shape := ⟨2, ![128, 8]⟩
abbrev S8x128 : Shape := ⟨2, ![8, 128]⟩
abbrev S50000x128 : Shape := ⟨2, ![50000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x8 : Shape := ⟨2, ![800000, 8]⟩
abbrev S4000x128 : Shape := ⟨2, ![4000, 128]⟩
abbrev S4000x8 : Shape := ⟨2, ![4000, 8]⟩
abbrev S50000x8 : Shape := ⟨2, ![50000, 8]⟩
abbrev S5000x128 : Shape := ⟨2, ![5000, 128]⟩
abbrev S5000x8 : Shape := ⟨2, ![5000, 8]⟩

abbrev nBuf : Space → Nat
  | .hbm => 55
  | .vmem => 19
  | .smem => 0
  | _ => 0

abbrev bufTy : (tb : Table) → Fin (tcTables nBuf tb) → BufTy
  | .hbm, ⟨0, _⟩ => ⟨S1x50000x128, .f32⟩
  | .hbm, ⟨1, _⟩ => ⟨S1x50000x128, .f32⟩
  | .hbm, ⟨2, _⟩ => ⟨S1x50000x128, .f32⟩
  | .hbm, ⟨3, _⟩ => ⟨S2x800000, .i32⟩
  | .hbm, ⟨4, _⟩ => ⟨S128x8, .f32⟩
  | .hbm, ⟨5, _⟩ => ⟨S8x128, .f32⟩
  | .hbm, ⟨6, _⟩ => ⟨S50000x128, .f32⟩
  | .hbm, ⟨7, _⟩ => ⟨S50000x128, .bf16⟩
  | .hbm, ⟨8, _⟩ => ⟨S50000x128, .f32⟩
  | .hbm, ⟨9, _⟩ => ⟨S50000x128, .bf16⟩
  | .hbm, ⟨10, _⟩ => ⟨S50000x128, .f32⟩
  | .hbm, ⟨11, _⟩ => ⟨S50000x128, .bf16⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .bf16⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .bf16⟩
  | .hbm, ⟨43, _⟩ => ⟨S800000x128, .f32⟩
  | .hbm, ⟨44, _⟩ => ⟨S800000x8, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S_, .f32⟩
  | .hbm, ⟨50, _⟩ => ⟨S50000x8, .f32⟩
  | .hbm, ⟨51, _⟩ => ⟨S800000x1, .i32⟩
  | .hbm, ⟨52, _⟩ => ⟨S50000x8, .f32⟩
  | .hbm, ⟨53, _⟩ => ⟨S50000x128, .f32⟩
  | .hbm, ⟨54, _⟩ => ⟨S1x50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S128x8, .f32⟩
  | .local _ .vmem, ⟨7, _⟩ => ⟨S8x128, .f32⟩
  | .local _ .vmem, ⟨8, _⟩ => ⟨S4000x128, .f32⟩
  | .local _ .vmem, ⟨9, _⟩ => ⟨S4000x128, .f32⟩
  | .local _ .vmem, ⟨10, _⟩ => ⟨S4000x8, .f32⟩
  | .local _ .vmem, ⟨11, _⟩ => ⟨S4000x8, .f32⟩
  | .local _ .vmem, ⟨12, _⟩ => ⟨S5000x128, .f32⟩
  | .local _ .vmem, ⟨13, _⟩ => ⟨S5000x128, .f32⟩
  | .local _ .vmem, ⟨14, _⟩ => ⟨S5000x8, .f32⟩
  | .local _ .vmem, ⟨15, _⟩ => ⟨S5000x8, .f32⟩
  | .local _ .vmem, ⟨16, _⟩ => ⟨S8x128, .f32⟩
  | .local _ .vmem, ⟨17, _⟩ => ⟨S5000x128, .f32⟩
  | .local _ .vmem, ⟨18, _⟩ => ⟨S5000x128, .f32⟩
  | _, _ => ⟨S1x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x50000x128_S50000x128 : S1x50000x128.ShapeCasts S50000x128
  bitsLt_bf16_f32 : FTy.bits .bf16 < FTy.bits .f32
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  inb_S4000x8_S4000x8_0_0 : ∀ a, (![0, 0] : Fin 2 → Nat) a + S4000x8.size a ≤ S4000x8.size a
  h_S4000x8 : 0 < S4000x8.numel
  bcast_S_S50000x128 : S_.BroadcastsInDim S50000x128 (![] : Fin 0 → Fin S50000x128.rank)
  bcast_S_S50000x8 : S_.BroadcastsInDim S50000x8 (![] : Fin 0 → Fin S50000x8.rank)
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S1x50000x128 : S50000x128.ShapeCasts S1x50000x128
  gather_S50000x128_S800000x1_S800000x128_1_0_n_n_0_1_1128_wf : GatherDims.WF S50000x128 S800000x1 S800000x128 [1] [0] [] [0] [] 1 ![1, 128]
  dot_S4000x128_S128x8_S4000x8_1_0_0_1_n_n_wf : DotDims.WF S4000x128 S128x8 S4000x8 [1] [0] [0] [1] [] []
  dot_S4000x8_S8x128_S4000x128_1_0_0_1_n_n_wf : DotDims.WF S4000x8 S8x128 S4000x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  dot_S5000x8_S8x128_S5000x128_1_0_0_1_n_n_wf : DotDims.WF S5000x8 S8x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .bf16 = 32 ∨ (Rect.block (s := S800000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .bf16 = 32 ∨ (Rect.block (s := S800000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S800000x128.size a
  hwx0_2 : ∀ i : grid0.Coords, EltTy.bits .bf16 = 32 ∨ (Rect.block (s := S800000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x8.size a ≤ S128x8.size a
  hwx0_3 : ∀ i : grid0.Coords, EltTy.bits .f32 = 32 ∨ (Rect.block (s := S128x8) S128x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S800000x128.size a
  hwx0_5 : ∀ i : grid0.Coords, EltTy.bits .f32 = 32 ∨ (Rect.block (s := S800000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x8.size a ≤ S800000x8.size a
  hwx0_6 : ∀ i : grid0.Coords, EltTy.bits .f32 = 32 ∨ (Rect.block (s := S800000x8) S4000x8.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x8.size a ≤ S50000x8.size a
  hwx1_1 : ∀ i : grid1.Coords, EltTy.bits .f32 = 32 ∨ (Rect.block (s := S50000x8) S5000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S8x128.size a
  hwx1_2 : ∀ i : grid1.Coords, EltTy.bits .f32 = 32 ∨ (Rect.block (s := S8x128) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def dot_S5000x8_S8x128_S5000x128_1_0_0_1_n_n : DotDims S5000x8 S8x128 S5000x128 where
  lhsContracting := [1]
  rhsContracting := [0]
  lhsNonContracting := [0]
  rhsNonContracting := [1]
  lhsBatch := []
  rhsBatch := []
  wf := dot_S5000x8_S8x128_S5000x128_1_0_0_1_n_n_wf

abbrev win0_0 : Pipeline.Window sig grid0 :=
  Pipeline.Window.ofSpec (Memref.whole main_v16) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S128x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst_0) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31_1) S4000x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_cst_0) S8x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x50000x128 : Shape := ⟨3, ![1, 50000, 128]⟩
abbrev S2x800000 : Shape := ⟨2, ![2, 800000]⟩
abbrev S50000x8x16 : Shape := ⟨3, ![50000, 8, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8x16 : Shape := ⟨3, ![800000, 8, 16]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 70
  | .vmem => 0
  | .smem => 0
  | _ => 0

abbrev bufTy : (tb : Table) → Fin (tcTables nBuf tb) → BufTy
  | .hbm, ⟨0, _⟩ => ⟨S1x50000x128, .f32⟩
  | .hbm, ⟨1, _⟩ => ⟨S1x50000x128, .f32⟩
  | .hbm, ⟨2, _⟩ => ⟨S1x50000x128, .f32⟩
  | .hbm, ⟨3, _⟩ => ⟨S2x800000, .i32⟩
  | .hbm, ⟨4, _⟩ => ⟨S50000x8x16, .f32⟩
  | .hbm, ⟨5, _⟩ => ⟨S50000x8x16, .f32⟩
  | .hbm, ⟨6, _⟩ => ⟨S50000x8x16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x8x16, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x8x16, .f32⟩
  | .hbm, ⟨29, _⟩ => ⟨S800000x8x16, .f32⟩
  | .hbm, ⟨30, _⟩ => ⟨S_, .f32⟩
  | .hbm, ⟨31, _⟩ => ⟨S800000x8x16, .f32⟩
  | .hbm, ⟨32, _⟩ => ⟨S800000x8x16, .f32⟩
  | .hbm, ⟨33, _⟩ => ⟨S_, .f32⟩
  | .hbm, ⟨34, _⟩ => ⟨S800000x8, .f32⟩
  | .hbm, ⟨35, _⟩ => ⟨S800000x8x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S800000x8x1, .f32⟩
  | .hbm, ⟨40, _⟩ => ⟨S800000x8x1, .f32⟩
  | .hbm, ⟨41, _⟩ => ⟨S_, .f32⟩
  | .hbm, ⟨42, _⟩ => ⟨S800000x8x1, .f32⟩
  | .hbm, ⟨43, _⟩ => ⟨S800000x8x1, .f32⟩
  | .hbm, ⟨44, _⟩ => ⟨S800000x8x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x8x16, .f32⟩
  | .hbm, ⟨54, _⟩ => ⟨S800000x8x16, .f32⟩
  | .hbm, ⟨55, _⟩ => ⟨S800000x8x16, .f32⟩
  | .hbm, ⟨56, _⟩ => ⟨S_, .f32⟩
  | .hbm, ⟨57, _⟩ => ⟨S50000x8x16, .f32⟩
  | .hbm, ⟨58, _⟩ => ⟨S800000x1, .i32⟩
  | .hbm, ⟨59, _⟩ => ⟨S50000x8x16, .f32⟩
  | .hbm, ⟨60, _⟩ => ⟨S_, .f32⟩
  | .hbm, ⟨61, _⟩ => ⟨S50000x8x1, .f32⟩
  | .hbm, ⟨62, _⟩ => ⟨S800000x1, .i32⟩
  | .hbm, ⟨63, _⟩ => ⟨S50000x8x1, .f32⟩
  | .hbm, ⟨64, _⟩ => ⟨S_, .f32⟩
  | .hbm, ⟨65, _⟩ => ⟨S50000x8x1, .f32⟩
  | .hbm, ⟨66, _⟩ => ⟨S50000x8x1, .f32⟩
  | .hbm, ⟨67, _⟩ => ⟨S50000x8x16, .f32⟩
  | .hbm, ⟨68, _⟩ => ⟨S50000x8x16, .f32⟩
  | .hbm, ⟨69, _⟩ => ⟨S1x50000x128, .f32⟩
  | _, _ => ⟨S1x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  shapeCasts_S1x50000x128_S50000x8x16 : S1x50000x128.ShapeCasts S50000x8x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S1x50000x128 : S50000x8x16.ShapeCasts S1x50000x128
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.KRun.lean ====
/-
  The program's run, read at its result.

  The program is five segments: host operations, the first launch, host operations, the second launch, one reshape.
  The buffer contents at the segment boundaries form a fold from the launch memory (`W0` … `W5` of the frame): a
  stretch of host operations applies them; a launch replaces its arrays by what its write-backs leave and keeps every
  other buffer. Every weakly fair execution terminates, without a fault, with every unscoped buffer at the last
  boundary's contents `W5`; read at the result buffer this names the result, and at the four argument buffers it says
  they end as launched.
-/
import proofs.«136254_j36404142800928_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the four arguments as launched. -/
theorem run : θ_run defs (onTc (τ := τ) (main (F := F))) ⟨m, fun _ => 0, ρ⟩ (fun r => ∀ c : Dev nD,
      r.2.mem ((c.tc : Thread nD τ).loc main_v39) = W5 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v39 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.ResultRun

end
-- ==== Proof.Spec.lean ====
/-
  Attention over the edges of a graph, aggregated at the destination nodes — the function both programs compute, read
  on the extended reals.

  There are 50000 nodes with 128 features each, grouped in 8 heads of 16 consecutive features, and 800000 edges.
  Each edge `e` has a source row and a destination row (looked up from index words, so clamped into the node range)
  and a destination WORD (the raw signed word that addresses the segment sum; a word outside the node range addresses
  no node). Per edge and head:

    logit e h = ∑ d < 16, k[src e, 16 h + d] · q[dst e, 16 h + d] / 4
    score e h = exp (min 5 (max (−5) (logit e h)))
    msg e c   = v[src e, c] · score e (c / 16)

  and per node: `wV n c = ∑ e, [word e = n] msg e c`, `Z n h = ∑ e, [word e = n] score e h`,
  `out n c = wV n c / (Z n (c / 16) + ε)`.

  One program forms the per-head sums and the per-head broadcasts by products with the 0/1 matrix "feature c belongs
  to head h" and scales by 1/4 where the other divides by 4; `sum_mul_group`, `sum_group_mul` and `mul_quarter`
  are the three laws that identify the two spellings. None of them needs a finite entry: on the extended reals
  `x · 0 = 0` and `x · 1 = x` for every `x`, and dividing by the real 4 is multiplying by the real 1/4.
-/
import Idealize.ShloMosaic.PureOps.Ideal
import Idealize.ShloMosaic.Lib.ValueIdx

noncomputable section

open scoped BigOperators

namespace Cert.EdgeAttn

open Idealize.ShloMosaic Idealize.ShloMosaic.ValueIdx

/-! ## Shapes and constants -/

abbrev SArg : Shape := ⟨3, ![1, 50000, 128]⟩
abbrev SIdx : Shape := ⟨2, ![800000, 1]⟩

/-- The five float words the programs spell. -/
def quarter : EReal := Ideal.ofBits .f32 0x3E800000#32
def four : EReal := Ideal.ofBits .f32 0x40800000#32
def lo : EReal := Ideal.ofBits .f32 0xC0A00000#32
def hi : EReal := Ideal.ofBits .f32 0x40A00000#32
def eps : EReal := Ideal.ofBits .f32 0x358637BD#32

theorem quarter_eq : quarter = ((1 / 4 : ℝ) : EReal) := by
  unfold quarter; simp [Ideal.ofBits, Ideal.ieee, -EReal.coe_mul]; norm_num

theorem four_eq : four = ((4 : ℝ) : EReal) := by
  unfold four; simp [Ideal.ofBits, Ideal.ieee, -EReal.coe_mul]; norm_num

/-- Scaling by the word 0.25 is dividing by the word 4.0, on every extended real. -/
theorem mul_quarter (x : EReal) : x * quarter = Ideal.div x four := by
  rw [quarter_eq, four_eq, Ideal.div_coe (by norm_num : (4 : ℝ) ≠ 0)]

/-! ## Heads -/

/-- Feature `d` of head `h`. -/
def col (h : Fin 8) (d : Fin 16) : Fin 128 := ⟨16 * h.val + d.val, by omega⟩
/-- The head a feature belongs to. -/
def head (c : Fin 128) : Fin 8 := ⟨c.val / 16, by omega⟩

theorem head_col (h : Fin 8) (d : Fin 16) : head (col h d) = h := by
  apply Fin.ext; show (16 * h.val + d.val) / 16 = h.val; omega

/-- The features as (head, position in the head). -/
def colEquiv : Fin 8 × Fin 16 ≃ Fin 128 where
  toFun p := col p.1 p.2
  invFun c := (head c, ⟨c.val % 16, Nat.mod_lt _ (by norm_num)⟩)
  left_inv p := by
    obtain ⟨h, d⟩ := p
    refine Prod.ext (Fin.ext ?_) (Fin.ext ?_)
    · show (16 * h.val + d.val) / 16 = h.val; omega
    · show (16 * h.val + d.val) % 16 = d.val; omega
  right_inv c := by
    apply Fin.ext; show 16 * (c.val / 16) + c.val % 16 = c.val; omega

/-- A sum over the features against the indicator of head `h` is the sum over that head's 16 features. -/
theorem sum_mul_group (f : Fin 128 → EReal) (g : Fin 128 → EReal) (h : Fin 8)
    (hg : ∀ c, g c = if head c = h then 1 else 0) :
    ∑ c : Fin 128, f c * g c = ∑ d : Fin 16, f (col h d) := by
  rw [← Equiv.sum_comp colEquiv (fun c => f c * g c), Fintype.sum_prod_type]
  rw [Finset.sum_eq_single h]
  · refine Finset.sum_congr rfl fun d _ => ?_
    show f (col h d) * g (col h d) = _
    rw [hg, head_col, if_pos rfl, mul_one]
  · intro h' _ hne
    refine Finset.sum_eq_zero fun d _ => ?_
    show f (col h' d) * g (col h' d) = 0
    rw [hg, head_col, if_neg hne, mul_zero]
  · intro hn; exact absurd (Finset.mem_univ h) hn

/-- A sum over the heads against the indicator of feature `c`'s head is the entry of that head. -/
theorem sum_group_mul (s : Fin 8 → EReal) (g : Fin 8 → EReal) (c : Fin 128)
    (hg : ∀ h, g h = if head c = h then 1 else 0) :
    ∑ h : Fin 8, s h * g h = s (head c) := by
  rw [Finset.sum_eq_single (head c)]
  · rw [hg, if_pos rfl, mul_one]
  · intro h' _ hne
    rw [hg, if_neg (fun e => hne e.symm), mul_zero]
  · intro hn; exact absurd (Finset.mem_univ _) hn

/-! ## The function, edge by edge and node by node -/

section Fn
variable (q k v : SArg.Idx → EReal) (iS iD iR : IVec SIdx 32)

/-- The node row a lookup word addresses: read signed, clamped into the node range. -/
def rowOf (I : IVec SIdx 32) (e : Fin 800000) : Fin 50000 :=
  ⟨min (I (ix2 e ⟨0, Nat.one_pos⟩)).toInt.toNat (50000 - 1), by omega⟩

/-- The word that addresses the segment sum, read signed. -/
def wordOf (I : IVec SIdx 32) (e : Fin 800000) : Int := (I (ix2 e ⟨0, Nat.one_pos⟩)).toInt

/-- Feature `c` of the key at the edge's source times the query at its destination. -/
def kq (e : Fin 800000) (c : Fin 128) : EReal :=
  k (ix3 ⟨0, Nat.one_pos⟩ (rowOf iS e) c) * q (ix3 ⟨0, Nat.one_pos⟩ (rowOf iD e) c)

def logit (e : Fin 800000) (h : Fin 8) : EReal := ∑ d : Fin 16, Ideal.div (kq q k iS iD e (col h d)) four

def score (e : Fin 800000) (h : Fin 8) : EReal := Ideal.exp (min hi (max lo (logit q k iS iD e h)))

def msg (e : Fin 800000) (c : Fin 128) : EReal :=
  v (ix3 ⟨0, Nat.one_pos⟩ (rowOf iS e) c) * score q k iS iD e (head c)

def wV (n : Fin 50000) (c : Fin 128) : EReal :=
  ∑ e : Fin 800000, if wordOf iR e = (n.val : Int) then msg q k v iS iD e c else 0

def Z (n : Fin 50000) (h : Fin 8) : EReal :=
  ∑ e : Fin 800000, if wordOf iR e = (n.val : Int) then score q k iS iD e h else 0

/-- The result array. -/
def out : SArg.Idx → EReal := fun i =>
  Ideal.div (wV q k v iS iD iR (i 1) (i 2)) (Z q k iS iD iR (i 1) (head (i 2)) + eps)

end Fn

/-! ## What each of the two launched computations does to whole arrays

  The first launch takes the gathered key, query and value rows (one row per edge) and the two 0/1 grouping matrices
  and returns the messages and the scores; the second takes the two segment sums and the grouping matrix and returns
  the quotient. Stated for arbitrary matrices `g`, `gt`: a row of the result depends on the same row of the operands. -/

abbrev SE128 : Shape := ⟨2, ![800000, 128]⟩
abbrev SE8 : Shape := ⟨2, ![800000, 8]⟩
abbrev SG : Shape := ⟨2, ![128, 8]⟩
abbrev SGT : Shape := ⟨2, ![8, 128]⟩
abbrev SN128 : Shape := ⟨2, ![50000, 128]⟩
abbrev SN8 : Shape := ⟨2, ![50000, 8]⟩

/-- Scores of the first launch: per edge row and head column, the clamped exponential of the row of products scaled by
    a quarter, contracted with `g`. -/
def scoreOf (x0 x1 : SE128.Idx → EReal) (g : SG.Idx → EReal) : SE8.Idx → EReal := fun j =>
  Ideal.exp (min hi (max lo (∑ c : Fin 128, (x0 (ix2 (j 0) c) * x1 (ix2 (j 0) c) * quarter) * g (ix2 c (j 1)))))

/-- Messages of the first launch: the value row times the scores contracted with `gt`. -/
def msgOf (x0 x1 x2 : SE128.Idx → EReal) (g : SG.Idx → EReal) (gt : SGT.Idx → EReal) : SE128.Idx → EReal := fun i =>
  x2 i * ∑ h : Fin 8, scoreOf x0 x1 g (ix2 (i 0) h) * gt (ix2 h (i 1))

/-- The second launch: the weighted sum divided by the normaliser contracted with `gt`, plus ε. -/
def divOf (wv : SN128.Idx → EReal) (z : SN8.Idx → EReal) (gt : SGT.Idx → EReal) : SN128.Idx → EReal := fun i =>
  Ideal.div (wv i) ((∑ h : Fin 8, z (ix2 (i 0) h) * gt (ix2 h (i 1))) + eps)

/-- With `g` the indicator "feature belongs to head", a score of the first launch is the clamped exponential of the
    head's 16 products, each divided by four. -/
theorem scoreOf_group (x0 x1 : SE128.Idx → EReal) (g : SG.Idx → EReal)
    (hg : ∀ (c : Fin 128) (h : Fin 8), g (ix2 c h) = if head c = h then 1 else 0) (e : Fin 800000) (h : Fin 8) :
    scoreOf x0 x1 g (ix2 e h)
      = Ideal.exp (min hi (max lo (∑ d : Fin 16, Ideal.div (x0 (ix2 e (col h d)) * x1 (ix2 e (col h d))) four))) := by
  unfold scoreOf
  show Ideal.exp (min hi (max lo (∑ c : Fin 128, (x0 (ix2 e c) * x1 (ix2 e c) * quarter) * g (ix2 c h)))) = _
  rw [sum_mul_group (fun c => x0 (ix2 e c) * x1 (ix2 e c) * quarter) (fun c => g (ix2 c h)) h (fun c => hg c h)]
  simp only [mul_quarter]

end Cert.EdgeAttn

end
-- ==== Proof.KGlue.lean ====
/-
  The buffer contents at the program's segment boundaries, named.

  Before the first launch the host gathers, for every edge, the key row at the edge's source, the query row at its
  destination and the value row at its source (rows of the arguments reshaped to [50000, 128]; a change of float format
  is the identity on the extended reals), and writes the two 0/1 grouping matrices. Between the launches it forms the
  two segment sums of the first launch's outputs, addressed by the raw destination words, onto zero arrays. After the
  second launch it reshapes the quotient back to [1, 50000, 128]. The index arrays — the looked-up source and
  destination words, wrapped into the node range where negative, and the raw destination words — are kept as the
  operations' composed terms of the edge-word argument and are never opened.
-/
import proofs.«136254_j36404142800928_2_alg».proof.Proof.Gen.KernelIdeal.Frame
import proofs.«136254_j36404142800928_2_alg».proof.Proof.Spec
import Idealize.ShloMosaic.Lib.StableHlo.Run
import Idealize.ShloMosaic.PureOps.Ideal

set_option maxRecDepth 16384

noncomputable section

namespace Cert.KernelIdeal.Glue

open Cert.KernelIdeal Cert.KernelIdeal.Gen Cert.EdgeAttn
open Idealize.ShloMosaic Idealize.ShloMosaic.TcCoe Idealize.SL.Sem Idealize.ShloMosaic.StableHlo

/-! ## The host operations' terms -/

/-- An argument [1, 50000, 128] as rows [50000, 128]. -/
def rows (a : FVec Ideal S1x50000x128 .f32) : FVec Ideal S50000x128 .bf16 :=
  truncf .bf16 (fun i => shapeCast S50000x128 a shapeCasts_S1x50000x128_S50000x128 i) bitsLt_bf16_f32

/-- Row `r` (0: sources, 1: destinations) of the edge words, as a vector of 800000 words. -/
def srcWords (w : IVec S2x800000 32) : IVec S800000 32 :=
  fun i => shapeCast S800000 (extractStridedSlice S1x800000 ![0, 0] w slices_S2x800000_S1x800000_0_0) shapeCasts_S1x800000_S800000 i
def dstWords (w : IVec S2x800000 32) : IVec S800000 32 :=
  fun i => shapeCast S800000 (extractStridedSlice S1x800000 ![1, 0] w slices_S2x800000_S1x800000_1_0) shapeCasts_S1x800000_S800000 i

/-- The words of a lookup: a negative word is wrapped by the number of nodes; one word per row. -/
def lookupWords (x : IVec S800000 32) : IVec S800000x1 32 :=
  broadcastInDim S800000x1 ![0] bcast_S800000_S800000x1_0
    (select (cmpi CmpIPredicate.slt x (broadcastInDim S800000 ![] bcast_S_S800000 (constantI S_ 32 0#32)))
      (addi x (broadcastInDim S800000 ![] bcast_S_S800000 (constantI S_ 32 50000#32))) x)

/-- The words that address a segment sum: as they are; one word per row. -/
def segmentWords (x : IVec S800000 32) : IVec S800000x1 32 :=
  broadcastInDim S800000x1 ![0] bcast_S800000_S800000x1_0 x

variable (m : (ℓ : Loc nD τ sig) → Buf (Elt Ideal) ℓ) (ρ : Dev nD → PrngReg)

/-- The four arguments on core `c`. -/
abbrev argQ (c : Dev nD) : FVec Ideal S1x50000x128 .f32 := m ((c.tc : Thread nD τ).loc main_arg0)
abbrev argK (c : Dev nD) : FVec Ideal S1x50000x128 .f32 := m ((c.tc : Thread nD τ).loc main_arg1)
abbrev argV (c : Dev nD) : FVec Ideal S1x50000x128 .f32 := m ((c.tc : Thread nD τ).loc main_arg2)
abbrev argE (c : Dev nD) : IVec S2x800000 32 := m ((c.tc : Thread nD τ).loc main_arg3)

/-! ## At the first launch's entry -/

theorem keyRows (c : Dev nD) : W1 m ρ c (Proc.devRef .tc main_v16)
    = Host.gather gather_S50000x128_S800000x1_S800000x128_1_0_n_n_0_1_1128 (rows (argK m c)) (lookupWords (srcWords (argE m c))) := by
  show StableHlo.after hostOps0 (W0 m ρ c) (Proc.devRef .tc main_v16) = _
  after_results_simp
  rfl

theorem queryRows (c : Dev nD) : W1 m ρ c (Proc.devRef .tc main_v23)
    = Host.gather gather_S50000x128_S800000x1_S800000x128_1_0_n_n_0_1_1128 (rows (argQ m c)) (lookupWords (dstWords (argE m c))) := by
  show StableHlo.after hostOps0 (W0 m ρ c) (Proc.devRef .tc main_v23) = _
  after_results_simp
  rfl

theorem valueRows (c : Dev nD) : W1 m ρ c (Proc.devRef .tc main_v30)
    = Host.gather gather_S50000x128_S800000x1_S800000x128_1_0_n_n_0_1_1128 (rows (argV m c)) (lookupWords (srcWords (argE m c))) := by
  show StableHlo.after hostOps0 (W0 m ρ c) (Proc.devRef .tc main_v30) = _
  after_results_simp
  rfl

theorem groupMat (c : Dev nD) : W1 m ρ c (Proc.devRef .tc main_cst)
    = fun i => Ideal.ofBits .f32 (lit0 (S128x8.rowMajor i)) := by
  show StableHlo.after hostOps0 (W0 m ρ c) (Proc.devRef .tc main_cst) = _
  after_results_simp
  rfl

theorem groupMatT (c : Dev nD) : W1 m ρ c (Proc.devRef .tc main_cst_0)
    = fun i => Ideal.ofBits .f32 (lit1 (S8x128.rowMajor i)) := by
  show StableHlo.after hostOps0 (W0 m ρ c) (Proc.devRef .tc main_cst_0) = _
  after_results_simp
  rfl

theorem dstVec (c : Dev nD) : W1 m ρ c (Proc.devRef .tc main_v9) = dstWords (argE m c) := by
  show StableHlo.after hostOps0 (W0 m ρ c) (Proc.devRef .tc main_v9) = _
  after_results_simp
  rfl

/-! ## Through the launches

  What a launch leaves in its output arrays is a fact about the launch alone, for any contents at its entry; it enters
  here as a hypothesis (`RegionFacts`) and is proved beside this file. -/

/-- The two launches' output arrays as whole-array functions of their operand arrays, whatever the entry contents. -/
structure RegionFacts : Prop where
  msg : ∀ (V : (c : Dev nD) → (b : Ref sig .tc) → Buf (Elt Ideal) ((c : Thread nD τ).loc b)) (c : Dev nD),
    (dat0 (F := Ideal) V c).arrAt 5 cfg0.N
      = msgOf (V c (Pipeline.arrRef spec0 0)) (V c (Pipeline.arrRef spec0 1)) (V c (Pipeline.arrRef spec0 2))
          (V c (Pipeline.arrRef spec0 3)) (V c (Pipeline.arrRef spec0 4))
  score : ∀ (V : (c : Dev nD) → (b : Ref sig .tc) → Buf (Elt Ideal) ((c : Thread nD τ).loc b)) (c : Dev nD),
    (dat0 (F := Ideal) V c).arrAt 6 cfg0.N
      = scoreOf (V c (Pipeline.arrRef spec0 0)) (V c (Pipeline.arrRef spec0 1)) (V c (Pipeline.arrRef spec0 3))
  quot : ∀ (V : (c : Dev nD) → (b : Ref sig .tc) → Buf (Elt Ideal) ((c : Thread nD τ).loc b)) (c : Dev nD),
    (dat1 (F := Ideal) V c).arrAt 3 cfg1.N
      = divOf (V c (Pipeline.arrRef spec1 0)) (V c (Pipeline.arrRef spec1 1)) (V c (Pipeline.arrRef spec1 2))

variable (hR : RegionFacts)
include hR

theorem msgArr (c : Dev nD) : W2 m ρ c (Proc.devRef .tc main_v31_0)
    = msgOf (W1 m ρ c (Proc.devRef .tc main_v16)) (W1 m ρ c (Proc.devRef .tc main_v23)) (W1 m ρ c (Proc.devRef .tc main_v30))
        (W1 m ρ c (Proc.devRef .tc main_cst)) (W1 m ρ c (Proc.devRef .tc main_cst_0)) :=
  (W2_arr m ρ c 5).trans (hR.msg (V1 m ρ) c)

theorem scoreArr (c : Dev nD) : W2 m ρ c (Proc.devRef .tc main_v31_1)
    = scoreOf (W1 m ρ c (Proc.devRef .tc main_v16)) (W1 m ρ c (Proc.devRef .tc main_v23)) (W1 m ρ c (Proc.devRef .tc main_cst)) :=
  (W2_arr m ρ c 6).trans (hR.score (V1 m ρ) c)

omit hR in
/-- The first launch only reads the grouping matrix: it leaves it as entered. -/
theorem groupMatT_kept (c : Dev nD) : W2 m ρ c (Proc.devRef .tc main_cst_0) = W1 m ρ c (Proc.devRef .tc main_cst_0) :=
  (W2_arr m ρ c 4).trans (((dat0 (F := Ideal) (V1 m ρ) c).arrAt_in 4 rfl cfg0.N).trans (A_eq0 (V1 m ρ) c 4))

omit hR in
/-- The destination words are no array of the first launch. -/
theorem dstVec_kept (c : Dev nD) : W2 m ρ c (Proc.devRef .tc main_v9) = W1 m ρ c (Proc.devRef .tc main_v9) :=
  W2_of_ne m ρ c main_v9 (by decide)

omit hR in
theorem sumMsg (c : Dev nD) : W3 m ρ c (Proc.devRef .tc main_v34)
    = Host.scatterAdd (F := Ideal) scatter_S50000x128_S800000x1_S800000x128_1_0_0_1
        (broadcastInDim S50000x128 ![] bcast_S_S50000x128 (constant (F := Ideal) S_ .f32 0x00000000#32))
        (segmentWords (W2 m ρ c (Proc.devRef .tc main_v9))) (W2 m ρ c (Proc.devRef .tc main_v31_0)) := by
  show StableHlo.after hostOps1 (W2 m ρ c) (Proc.devRef .tc main_v34) = _
  after_results_simp
  rfl

omit hR in
theorem sumScore (c : Dev nD) : W3 m ρ c (Proc.devRef .tc main_v37)
    = Host.scatterAdd (F := Ideal) scatter_S50000x8_S800000x1_S800000x8_1_0_0_1
        (broadcastInDim S50000x8 ![] bcast_S_S50000x8 (constant (F := Ideal) S_ .f32 0x00000000#32))
        (segmentWords (W2 m ρ c (Proc.devRef .tc main_v9))) (W2 m ρ c (Proc.devRef .tc main_v31_1)) := by
  show StableHlo.after hostOps1 (W2 m ρ c) (Proc.devRef .tc main_v37) = _
  after_results_simp
  rfl

omit hR in
theorem groupMatT_kept' (c : Dev nD) : W3 m ρ c (Proc.devRef .tc main_cst_0) = W2 m ρ c (Proc.devRef .tc main_cst_0) := by
  show StableHlo.after hostOps1 (W2 m ρ c) (Proc.devRef .tc main_cst_0) = _
  after_results_simp

theorem quotArr (c : Dev nD) : W4 m ρ c (Proc.devRef .tc main_v38)
    = divOf (W3 m ρ c (Proc.devRef .tc main_v34)) (W3 m ρ c (Proc.devRef .tc main_v37)) (W3 m ρ c (Proc.devRef .tc main_cst_0)) :=
  (W4_arr m ρ c 3).trans (hR.quot (V3 m ρ) c)

omit hR in
theorem result (c : Dev nD) : W5 m ρ c (Proc.devRef .tc main_v39)
    = fun i => shapeCast S1x50000x128 (W4 m ρ c (Proc.devRef .tc main_v38)) shapeCasts_S50000x128_S1x50000x128 i := by
  show StableHlo.after hostOps2 (W4 m ρ c) (Proc.devRef .tc main_v39) = _
  after_results_simp
  rfl

end Cert.KernelIdeal.Glue

end
-- ==== Proof.LibGatherRows.lean ====
/-
  A gather of rows, read at one element.

  The host's gather `x[idx]` along the leading axis reads, for each result row, one index word; the word is read as a
  signed integer and clamped into `[0, N − 1]` (so that the slice of one row fits in the operand), and the result row is
  the operand's row at that clamped position. For the two layouts such a lookup lowers to this file computes the operand
  index a result element reads:

  * rows: operand `[N, C]`, one index word per result row (start indices `[E, 1]`), result `[E, C]`, slices of one whole
    row. Result element `(e, k)` is the operand at `(clamp (idx e), k)`.
  * scalars: operand `[N]`, start indices `[E, 1]`, result `[E]`, slices of one element. Result element `e` is the
    operand at `clamp (idx e)`.

  Here `clamp z = min (toNat z) (N − 1)`: a negative word reads row 0, a word past the end reads the last row. The
  element type is arbitrary: a gather only moves elements.
-/
import Idealize.ShloMosaic.PureOps.Ideal
import Idealize.ShloMosaic.Lib.ValueIdx

noncomputable section

namespace Idealize.ShloMosaic.GatherAt

open Idealize.ShloMosaic Idealize.ShloMosaic.ValueIdx

/-! ## Rows: operand `[N, C]`, start indices `[E, 1]`, result `[E, C]` -/

section Rows
variable {α : Type} {N C E w : Nat}

/-- The dimension numbers of a row gather: the result's axis 1 is the offset axis and reads the operand's axis 1 (a whole
    row is one slice), the operand's axis 0 is collapsed and is the one the index word addresses, the index vector is the
    start indices' axis 1 (of extent one). -/
abbrev rowGDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the addressed axis the slice starts at the result row's index word, read signed and clamped into `[0, N − 1]`. -/
theorem rowGDims_start0 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 0 = min (idx (ix2 (j 0) ⟨0, Nat.one_pos⟩)).toInt.toNat (N - 1) := by
  unfold GatherDims.start
  rw [dif_pos (show (0 : Fin 2) ∈ (rowGDims N C E wf).startIndexMap from List.mem_singleton.mpr rfl)]
  have hsi : (rowGDims N C E wf).siIdx j ⟨List.idxOf (0 : Fin 2) (rowGDims N C E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the row's own axis the slice starts at zero. -/
theorem rowGDims_start1 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 1 = 0 := by
  unfold GatherDims.start
  rw [dif_neg (show ¬ (1 : Fin 2) ∈ (rowGDims N C E wf).startIndexMap from by simp)]

/-- The addressed axis is collapsed: it has no offset coordinate. -/
theorem rowGDims_off0 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 0 = 0 :=
  GatherDims.offCoord_eq_zero _ _ _ (fun h => ((GatherDims.mem_sKept _ _).mp h).1 (List.mem_singleton.mpr rfl))

/-- The offset coordinate on the operand's axis 1 is the result's column. -/
theorem rowGDims_off1 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 1 = (j 1).val := by
  unfold GatherDims.offCoord
  rw [dif_pos (show (1 : Fin 2) ∈ (rowGDims N C E wf).sKept from by simp [GatherDims.sKept, Shape.kept])]
  rfl

/-- THE ROW GATHER READ AT `(e, k)`: the operand at row "index word of `e`, read signed and clamped into
    `[0, N − 1]`", column `k`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ =>
    show (rowGDims N C E wf).start (ix2 e k) idx 0 + (rowGDims N C E wf).batchCoord (ix2 e k) 0
      + (rowGDims N C E wf).offCoord (ix2 e k) 0 = _
    rw [GatherDims.batchCoord_eq_zero _ _ _ List.not_mem_nil, rowGDims_off0, rowGDims_start0]
    rfl
  | ⟨1, _⟩ =>
    show (rowGDims N C E wf).start (ix2 e k) idx 1 + (rowGDims N C E wf).batchCoord (ix2 e k) 1
      + (rowGDims N C E wf).offCoord (ix2 e k) 1 = _
    rw [GatherDims.batchCoord_eq_zero _ _ _ List.not_mem_nil, rowGDims_off1, rowGDims_start1]
    simp only [Nat.add_zero, Nat.zero_add]
    rfl

end Rows

/-! ## Scalars: operand `[N]`, start indices `[E, 1]`, result `[E]` -/

section Scalars
variable {α : Type} {N E w : Nat}

/-- The dimension numbers of a scalar gather: no offset axis (a slice is one element); the operand's one axis is collapsed
    and addressed by the index word; the index vector is the start indices' axis 1 (of extent one). -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The slice starts at the result element's index word, read signed and clamped into `[0, N − 1]`. -/
theorem vecGDims_start0 (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (vecGDims N E wf).start j idx 0 = min (idx (ix2 (j 0) ⟨0, Nat.one_pos⟩)).toInt.toNat (N - 1) := by
  unfold GatherDims.start
  rw [dif_pos (show (0 : Fin 1) ∈ (vecGDims N E wf).startIndexMap from List.mem_singleton.mpr rfl)]
  have hsi : (vecGDims N E wf).siIdx j ⟨List.idxOf (0 : Fin 1) (vecGDims N E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- THE SCALAR GATHER READ AT `e`: the operand at "index word of `e`, read signed and clamped into `[0, N − 1]`". -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecGDims N E wf).start (ix1 e) idx 0 + (vecGDims N E wf).batchCoord (ix1 e) 0
    + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vecGDims_start0]
  rfl

end Scalars

end Idealize.ShloMosaic.GatherAt

end
-- ==== Proof.LibScatterAdd.lean ====
/-
  An additive scatter of rows, read at one element.

  The host's accumulating scatter `x.at[idx].add(upd)` at the ideal instance is, at each element of the operand, that
  element plus the sum of the update elements whose destination is that element. For the two layouts a segment sum
  lowers to this file computes the destination and turns the sum over "updates that land here" into a sum over the
  update ROWS guarded by "this row's index word is my row":

  * rows: operand `[N, C]`, one index word per update row (indices `[E, 1]`), updates `[E, C]`. Update `(e, c)`
    lands on `(idx e, c)` when `0 ≤ idx e < N` (the word read signed, nothing clamped) and is dropped otherwise. So
    element `(n, k)` receives `∑ e, [idx e = n] · upd (e, k)`: only column `k` of the updates reaches column `k`.
  * scalars: operand `[N]`, indices `[E, 1]`, updates `[E]`. Update `e` lands on `idx e`; element `n`
    receives `∑ e, [idx e = n] · upd e`.

  Nothing here needs the summands to be finite: the sums are only re-indexed.
-/
import Idealize.ShloMosaic.PureOps.Ideal
import Idealize.ShloMosaic.Lib.ValueIdx

noncomputable section

open scoped BigOperators

namespace Idealize.ShloMosaic.ScatterAddAt

open Idealize.ShloMosaic Idealize.ShloMosaic.ValueIdx

/-! ## Rows: operand `[N, C]`, indices `[E, 1]`, updates `[E, C]` -/

section Rows
variable {N C E w : Nat}

/-- The dimension numbers of a row scatter: the updates' axis 1 is the window axis and goes to the operand's axis 1, the
    operand's axis 0 is the one the index word addresses, the index vector is the indices' axis 1 (of extent one). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- The index word of update row `e`. -/
abbrev rowWord (idx : IVec ⟨2, ![E, 1]⟩ w) (e : Fin E) : Int := (idx (ix2 e ⟨0, Nat.one_pos⟩)).toInt

/-- On the addressed axis the window starts at the update row's index word, read signed. -/
theorem rowDims_start0 (j : (⟨2, ![E, C]⟩ : Shape).Idx) (idx : IVec ⟨2, ![E, 1]⟩ w) :
    (rowDims N C E wf).start j idx 0 = rowWord idx (j 0) := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the window axis the window starts at zero. -/
theorem rowDims_start1 (j : (⟨2, ![E, C]⟩ : Shape).Idx) (idx : IVec ⟨2, ![E, 1]⟩ w) :
    (rowDims N C E wf).start j idx 1 = 0 := by
  unfold ScatterDims.start
  rw [dif_neg (show ¬ (1 : Fin 2) ∈ (rowDims N C E wf).scatterDimsToOperandDims from by simp)]

/-- The addressed axis has no window coordinate. -/
theorem rowDims_window0 (j : (⟨2, ![E, C]⟩ : Shape).Idx) : (rowDims N C E wf).window j 0 = 0 := by
  unfold ScatterDims.window
  rw [dif_neg (show ¬ (0 : Fin 2) ∈ (rowDims N C E wf).sKept from by simp [ScatterDims.sKept, Shape.kept])]

/-- The window coordinate on the operand's axis 1 is the update's column. -/
theorem rowDims_window1 (j : (⟨2, ![E, C]⟩ : Shape).Idx) : (rowDims N C E wf).window j 1 = (j 1).val := by
  unfold ScatterDims.window
  rw [dif_pos (show (1 : Fin 2) ∈ (rowDims N C E wf).sKept from by simp [ScatterDims.sKept, Shape.kept])]
  rfl

/-- WHERE AN UPDATE LANDS: update `j = (e, c)` lands on operand element `i` exactly when row `e`'s index word is
    `i`'s row and `c` is `i`'s column. (A word outside `[0, N)` is no row: the update is dropped.) -/
theorem rowDims_resultIdx_eq_some_iff (j : (⟨2, ![E, C]⟩ : Shape).Idx) (idx : IVec ⟨2, ![E, 1]⟩ w)
    (i : (⟨2, ![N, C]⟩ : Shape).Idx) :
    (rowDims N C E wf).resultIdx? j idx = some i ↔ rowWord idx (j 0) = ((i 0).val : Int) ∧ (j 1).val = (i 1).val := by
  have hi0 := idx2_lt0 i
  have hi1 := idx2_lt1 i
  have hj1 := idx2_lt1 j
  unfold ScatterDims.resultIdx?
  split
  · next h =>
    rw [Option.some.injEq]
    have h0 := h 0
    rw [rowDims_start0, rowDims_window0] at h0
    constructor
    · intro hi
      have e0 : ((rowDims N C E wf).start j idx 0 + ((rowDims N C E wf).window j 0 : Int)).toNat = (i 0).val :=
        congrArg (fun f => (f 0).val) hi
      have e1 : ((rowDims N C E wf).start j idx 1 + ((rowDims N C E wf).window j 1 : Int)).toNat = (i 1).val :=
        congrArg (fun f => (f 1).val) hi
      rw [rowDims_start0, rowDims_window0] at e0
      rw [rowDims_start1, rowDims_window1] at e1
      omega
    · intro ⟨e0, e1⟩
      funext a
      refine Fin.ext ?_
      match a with
      | ⟨0, _⟩ =>
        show ((rowDims N C E wf).start j idx 0 + ((rowDims N C E wf).window j 0 : Int)).toNat = (i 0).val
        rw [rowDims_start0, rowDims_window0]; omega
      | ⟨1, _⟩ =>
        show ((rowDims N C E wf).start j idx 1 + ((rowDims N C E wf).window j 1 : Int)).toNat = (i 1).val
        rw [rowDims_start1, rowDims_window1]; omega
  · next h =>
    constructor
    · intro hn; cases hn
    · intro ⟨e0, e1⟩
      refine absurd (fun a => ?_) h
      match a with
      | ⟨0, _⟩ =>
        show 0 ≤ (rowDims N C E wf).start j idx 0 + ((rowDims N C E wf).window j 0 : Int)
          ∧ (rowDims N C E wf).start j idx 0 + ((rowDims N C E wf).window j 0 : Int) < ((N : Nat) : Int)
        rw [rowDims_start0, rowDims_window0]; omega
      | ⟨1, _⟩ =>
        show 0 ≤ (rowDims N C E wf).start j idx 1 + ((rowDims N C E wf).window j 1 : Int)
          ∧ (rowDims N C E wf).start j idx 1 + ((rowDims N C E wf).window j 1 : Int) < ((C : Nat) : Int)
        rw [rowDims_start1, rowDims_window1]; omega

/-- THE ROW SCATTER READ AT `(n, k)`: the operand's element plus, over the update rows whose index word is `n`, their
    column-`k` entries. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e : Fin E, if rowWord idx e = (n.val : Int) then upd (ix2 e k) else 0 := by
  unfold Ideal.hostScatterAdd
  congr 1
  rw [Finset.sum_filter, sum_idx2]
  refine Finset.sum_congr rfl fun e _ => ?_
  simp only [rowDims_resultIdx_eq_some_iff]
  by_cases hc : rowWord idx e = (n.val : Int)
  · rw [if_pos hc, Finset.sum_eq_single k]
    · exact if_pos ⟨hc, rfl⟩
    · intro b _ hb
      exact if_neg fun h => hb (Fin.ext h.2)
    · intro h; exact absurd (Finset.mem_univ k) h
  · rw [if_neg hc]
    exact Finset.sum_eq_zero fun b _ => if_neg fun h => hc h.1

end Rows

/-! ## Scalars: operand `[N]`, indices `[E, 1]`, updates `[E]` -/

section Scalars
variable {N E w : Nat}

/-- The dimension numbers of a scalar scatter: no window axis; the operand's one axis is addressed by the index word. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The window starts at the update's index word, read signed. -/
theorem vecDims_start0 (j : (⟨1, ![E]⟩ : Shape).Idx) (idx : IVec ⟨2, ![E, 1]⟩ w) :
    (vecDims N E wf).start j idx 0 = rowWord idx (j 0) := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- There is no window coordinate. -/
theorem vecDims_window0 (j : (⟨1, ![E]⟩ : Shape).Idx) : (vecDims N E wf).window j 0 = 0 := by
  unfold ScatterDims.window
  rw [dif_neg (show ¬ (0 : Fin 1) ∈ (vecDims N E wf).sKept from by simp [ScatterDims.sKept, Shape.kept])]

/-- WHERE AN UPDATE LANDS: update `e` lands on element `i` exactly when its index word is `i`. -/
theorem vecDims_resultIdx_eq_some_iff (j : (⟨1, ![E]⟩ : Shape).Idx) (idx : IVec ⟨2, ![E, 1]⟩ w)
    (i : (⟨1, ![N]⟩ : Shape).Idx) :
    (vecDims N E wf).resultIdx? j idx = some i ↔ rowWord idx (j 0) = ((i 0).val : Int) := by
  have hi0 : (i 0).val < N := (i 0).isLt
  unfold ScatterDims.resultIdx?
  split
  · next h =>
    rw [Option.some.injEq]
    have h0 := h 0
    rw [vecDims_start0, vecDims_window0] at h0
    constructor
    · intro hi
      have e0 : ((vecDims N E wf).start j idx 0 + ((vecDims N E wf).window j 0 : Int)).toNat = (i 0).val :=
        congrArg (fun f => (f 0).val) hi
      rw [vecDims_start0, vecDims_window0] at e0
      omega
    · intro e0
      funext a
      refine Fin.ext ?_
      match a with
      | ⟨0, _⟩ =>
        show ((vecDims N E wf).start j idx 0 + ((vecDims N E wf).window j 0 : Int)).toNat = (i 0).val
        rw [vecDims_start0, vecDims_window0]; omega
  · next h =>
    constructor
    · intro hn; cases hn
    · intro e0
      refine absurd (fun a => ?_) h
      match a with
      | ⟨0, _⟩ =>
        show 0 ≤ (vecDims N E wf).start j idx 0 + ((vecDims N E wf).window j 0 : Int)
          ∧ (vecDims N E wf).start j idx 0 + ((vecDims N E wf).window j 0 : Int) < ((N : Nat) : Int)
        rw [vecDims_start0, vecDims_window0]; omega

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE SCALAR SCATTER READ AT `n`: the operand's element plus the updates whose index word is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if rowWord idx e = (n.val : Int) then upd (ix1 e) else 0 := by
  unfold Ideal.hostScatterAdd
  congr 1
  rw [Finset.sum_filter, sum_idx1]
  refine Finset.sum_congr rfl fun e _ => ?_
  simp only [vecDims_resultIdx_eq_some_iff]
  rfl

end Scalars

end Idealize.ShloMosaic.ScatterAddAt

end
-- ==== Proof.KIndex.lean ====
/-
  The host operations around the two launches, read at one element: an argument's rows, a gathered row, a zero array,
  and a segment sum onto a zero array (at row n: the sum over the edges whose destination word is n).
-/
import proofs.«136254_j36404142800928_2_alg».proof.Proof.KGlue
import proofs.«136254_j36404142800928_2_alg».proof.Proof.LibGatherRows
import proofs.«136254_j36404142800928_2_alg».proof.Proof.LibScatterAdd
import Idealize.ShloMosaic.Lib.Pipeline.Value
import Idealize.ShloMosaic.PureOps.Ideal.Laws

set_option maxRecDepth 16384

noncomputable section

open scoped BigOperators

namespace Cert.KernelIdeal.Glue

open Cert.KernelIdeal Cert.KernelIdeal.Gen Cert.EdgeAttn
open Idealize.ShloMosaic Idealize.ShloMosaic.TcCoe Idealize.SL.Sem Idealize.ShloMosaic.ValueIdx

/-- An argument's rows: row n, column c is the argument at (0, n, c). -/
theorem rows_apply (a : FVec Ideal S1x50000x128 .f32) (n : Fin 50000) (c : Fin 128) :
    rows a (ix2 n c) = a (ix3 ⟨0, Nat.one_pos⟩ n c) := by
  show shapeCast S50000x128 a shapeCasts_S1x50000x128_S50000x128 (ix2 n c) = _
  refine shapeCast_apply a shapeCasts_S1x50000x128_S50000x128 (ix2 n c) (ix3 ⟨0, Nat.one_pos⟩ n c) ?_
  rw [Shape.rowMajor_val_three, Shape.rowMajor_val_two]
  show (0 * 50000 + n.val) * 128 + c.val = n.val * 128 + c.val
  omega

/-- A gathered row: the rows' row "lookup word, clamped". -/
theorem gather_apply (x : FVec Ideal S50000x128 .bf16) (I : IVec S800000x1 32) (e : Fin 800000) (c : Fin 128) :
    Host.gather gather_S50000x128_S800000x1_S800000x128_1_0_n_n_0_1_1128 x I (ix2 e c) = x (ix2 (rowOf I e) c) :=
  GatherAt.rowGather_apply (N := 50000) (C := 128) (E := 800000) (by norm_num)
    gather_S50000x128_S800000x1_S800000x128_1_0_n_n_0_1_1128.wf x I e c

/-- A zero array. -/
theorem zeros_apply {s : Shape} (h : S_.BroadcastsInDim s ![]) (i : s.Idx) :
    broadcastInDim s ![] h (constant (F := Ideal) S_ .f32 0x00000000#32) i = 0 := by
  unfold broadcastInDim constant
  exact Ideal.ofBits_zero_f32

/-- A segment sum of 128-wide rows, at (n, c): the operand's element plus the updates of the edges whose word is n. -/
theorem segsum128_apply (x : FVec Ideal S50000x128 .f32) (I : IVec S800000x1 32) (u : FVec Ideal S800000x128 .f32)
    (n : Fin 50000) (c : Fin 128) :
    Host.scatterAdd (F := Ideal) (φ := .f32) scatter_S50000x128_S800000x1_S800000x128_1_0_0_1 x I u (ix2 n c)
      = x (ix2 n c) + ∑ e : Fin 800000, if (I (ix2 e ⟨0, Nat.one_pos⟩)).toInt = (n.val : Int) then u (ix2 e c) else 0 :=
  ScatterAddAt.rowScatterAdd_apply (N := 50000) (C := 128) (E := 800000)
    Facts₀.scatter_S50000x128_S800000x1_S800000x128_1_0_0_1_wf x I u n c

/-- A segment sum of 8-wide rows, at (n, h). -/
theorem segsum8_apply (x : FVec Ideal S50000x8 .f32) (I : IVec S800000x1 32) (u : FVec Ideal S800000x8 .f32)
    (n : Fin 50000) (h : Fin 8) :
    Host.scatterAdd (F := Ideal) (φ := .f32) scatter_S50000x8_S800000x1_S800000x8_1_0_0_1 x I u (ix2 n h)
      = x (ix2 n h) + ∑ e : Fin 800000, if (I (ix2 e ⟨0, Nat.one_pos⟩)).toInt = (n.val : Int) then u (ix2 e h) else 0 :=
  ScatterAddAt.rowScatterAdd_apply (N := 50000) (C := 8) (E := 800000)
    Facts₀.scatter_S50000x8_S800000x1_S800000x8_1_0_0_1_wf x I u n h

/-- A segment sum of 128-wide rows onto a zero array, at (n, c): the updates of the edges whose word is n. -/
theorem segsum128_zero (I : IVec S800000x1 32) (u : FVec Ideal S800000x128 .f32) (n : Fin 50000) (c : Fin 128) :
    Host.scatterAdd (F := Ideal) (φ := .f32) scatter_S50000x128_S800000x1_S800000x128_1_0_0_1
        (broadcastInDim S50000x128 ![] bcast_S_S50000x128 (constant (F := Ideal) S_ .f32 0x00000000#32)) I u (ix2 n c)
      = ∑ e : Fin 800000, if (I (ix2 e ⟨0, Nat.one_pos⟩)).toInt = (n.val : Int) then u (ix2 e c) else 0 := by
  rw [segsum128_apply, zeros_apply, zero_add]

/-- A segment sum of 8-wide rows onto a zero array, at (n, h). -/
theorem segsum8_zero (I : IVec S800000x1 32) (u : FVec Ideal S800000x8 .f32) (n : Fin 50000) (h : Fin 8) :
    Host.scatterAdd (F := Ideal) (φ := .f32) scatter_S50000x8_S800000x1_S800000x8_1_0_0_1
        (broadcastInDim S50000x8 ![] bcast_S_S50000x8 (constant (F := Ideal) S_ .f32 0x00000000#32)) I u (ix2 n h)
      = ∑ e : Fin 800000, if (I (ix2 e ⟨0, Nat.one_pos⟩)).toInt = (n.val : Int) then u (ix2 e h) else 0 := by
  rw [segsum8_apply, zeros_apply, zero_add]

/-- Rows [50000, 128] reshaped to [1, 50000, 128]: (0, n, c) reads row n, column c. -/
theorem unrows_apply (y : FVec Ideal S50000x128 .f32) (n : Fin 50000) (c : Fin 128) :
    shapeCast S1x50000x128 y shapeCasts_S50000x128_S1x50000x128 (ix3 ⟨0, Nat.one_pos⟩ n c) = y (ix2 n c) := by
  refine shapeCast_apply y shapeCasts_S50000x128_S1x50000x128 (ix3 ⟨0, Nat.one_pos⟩ n c) (ix2 n c) ?_
  rw [Shape.rowMajor_val_three, Shape.rowMajor_val_two]
  show n.val * 128 + c.val = (0 * 50000 + n.val) * 128 + c.val
  omega

end Cert.KernelIdeal.Glue

end
-- ==== Proof.GroupMat.lean ====
/-
  The two grouping matrices the program writes as literals.

  `g` is [128, 8] and `gt` its transpose [8, 128]; the entry at (feature c, head h) is the word of 1.0 when feature `c`
  lies in head `h` (c / 16 = h) and the word of 0.0 otherwise. Both are read off the 1024 printed words once, and then
  as extended reals: 1 and 0.
-/
import proofs.«136254_j36404142800928_2_alg».proof.KernelIdeal
import proofs.«136254_j36404142800928_2_alg».proof.Proof.Spec
import Idealize.ShloMosaic.Lib.Pipeline.Value
import Idealize.ShloMosaic.PureOps.Ideal.Laws

set_option maxRecDepth 16384

noncomputable section

namespace Cert.KernelIdeal.GroupMat

open Cert.KernelIdeal Cert.EdgeAttn
open Idealize.ShloMosaic Idealize.ShloMosaic.ValueIdx

/-- The printed words of `g`, row-major: entry `i` is row `i / 8` (a feature), column `i % 8` (a head). -/
theorem lit0_eq : ∀ i : Fin 1024, lit0 i = if i.val / 8 / 16 = i.val % 8 then 0x3F800000#32 else 0x00000000#32 := by
  decide +kernel

/-- The printed words of `gt`, row-major: entry `i` is row `i / 128` (a head), column `i % 128` (a feature). -/
theorem lit1_eq : ∀ i : Fin 1024, lit1 i = if i.val % 128 / 16 = i.val / 128 then 0x3F800000#32 else 0x00000000#32 := by
  decide +kernel

theorem ofBits_one : Ideal.ofBits .f32 0x3F800000#32 = 1 := by
  simp [Ideal.ofBits, Ideal.ieee, -EReal.coe_mul]; norm_num

/-- `g` at (feature, head) is the indicator of "the feature lies in the head". -/
theorem g_entry (c : Fin 128) (h : Fin 8) :
    Ideal.ofBits .f32 (lit0 (S128x8.rowMajor (ix2 c h))) = if head c = h then 1 else 0 := by
  have hv : (S128x8.rowMajor (ix2 c h)).val = c.val * 8 + h.val := by
    rw [Shape.rowMajor_val_two]; rfl
  have key : ∀ i : Fin 1024, i.val = c.val * 8 + h.val →
      Ideal.ofBits .f32 (lit0 i) = if head c = h then 1 else 0 := by
    intro i hi
    rw [lit0_eq, hi]
    have hc := c.isLt
    have hh := h.isLt
    have h1 : (c.val * 8 + h.val) / 8 = c.val := by omega
    have h2 : (c.val * 8 + h.val) % 8 = h.val := by omega
    rw [h1, h2]
    by_cases hch : head c = h
    · have e : c.val / 16 = h.val := congrArg Fin.val hch
      rw [if_pos hch, if_pos e, ofBits_one]
    · have e : ¬ c.val / 16 = h.val := fun e => hch (Fin.ext e)
      rw [if_neg hch, if_neg e, Ideal.ofBits_zero_f32]
  exact key (S128x8.rowMajor (ix2 c h)) hv

/-- `gt` at (head, feature) is the same indicator. -/
theorem gt_entry (h : Fin 8) (c : Fin 128) :
    Ideal.ofBits .f32 (lit1 (S8x128.rowMajor (ix2 h c))) = if head c = h then 1 else 0 := by
  have hv : (S8x128.rowMajor (ix2 h c)).val = h.val * 128 + c.val := by
    rw [Shape.rowMajor_val_two]; rfl
  have key : ∀ i : Fin 1024, i.val = h.val * 128 + c.val →
      Ideal.ofBits .f32 (lit1 i) = if head c = h then 1 else 0 := by
    intro i hi
    rw [lit1_eq, hi]
    have hc := c.isLt
    have hh := h.isLt
    have h1 : (h.val * 128 + c.val) % 128 = c.val := by omega
    have h2 : (h.val * 128 + c.val) / 128 = h.val := by omega
    rw [h1, h2]
    by_cases hch : head c = h
    · have e : c.val / 16 = h.val := congrArg Fin.val hch
      rw [if_pos hch, if_pos e, ofBits_one]
    · have e : ¬ c.val / 16 = h.val := fun e => hch (Fin.ext e)
      rw [if_neg hch, if_neg e, Ideal.ofBits_zero_f32]
  exact key (S8x128.rowMajor (ix2 h c)) hv

end Cert.KernelIdeal.GroupMat

end
-- ==== Proof.SpecLaws.lean ====
/-
  From the launches' whole-array functions to the edge-by-edge and node-by-node form.

  Suppose the three gathered arrays hold, at (e, c), the key at the source row of edge e, the query at its destination
  row and the value at its source row, and the two matrices are the indicator "feature c lies in head h". Then the first
  launch's score at (e, h) is the edge's score, its message at (e, c) is the edge's message, and — given the two segment
  sums — the second launch's quotient at (n, c) is the result at (0, n, c). All over arbitrary arrays: nothing here
  mentions a program.
-/
import proofs.«136254_j36404142800928_2_alg».proof.Proof.Spec

noncomputable section

open scoped BigOperators

namespace Cert.EdgeAttn

open Idealize.ShloMosaic Idealize.ShloMosaic.ValueIdx

/-- The result function at (0, n, c), opened once over variables. -/
theorem out_at (q k v : SArg.Idx → EReal) (iS iD iR : IVec SIdx 32) (n : Fin 50000) (c : Fin 128) :
    out q k v iS iD iR (ix3 ⟨0, Nat.one_pos⟩ n c)
      = Ideal.div (wV q k v iS iD iR n c) (Z q k iS iD iR n (head c) + eps) := rfl

section Laws
variable (q k v : SArg.Idx → EReal) (iS iD iR : IVec SIdx 32)
variable (KS QD VS : SE128.Idx → EReal) (G : SG.Idx → EReal) (GT : SGT.Idx → EReal)
variable (hK : ∀ (e : Fin 800000) (c : Fin 128), KS (ix2 e c) = k (ix3 ⟨0, Nat.one_pos⟩ (rowOf iS e) c))
variable (hQ : ∀ (e : Fin 800000) (c : Fin 128), QD (ix2 e c) = q (ix3 ⟨0, Nat.one_pos⟩ (rowOf iD e) c))
variable (hV : ∀ (e : Fin 800000) (c : Fin 128), VS (ix2 e c) = v (ix3 ⟨0, Nat.one_pos⟩ (rowOf iS e) c))
variable (hG : ∀ (c : Fin 128) (h : Fin 8), G (ix2 c h) = if head c = h then 1 else 0)
variable (hGT : ∀ (h : Fin 8) (c : Fin 128), GT (ix2 h c) = if head c = h then 1 else 0)
include hK hQ hG

/-- The first launch's score is the edge's score. -/
theorem scoreOf_at (e : Fin 800000) (h : Fin 8) : scoreOf KS QD G (ix2 e h) = score q k iS iD e h := by
  rw [scoreOf_group KS QD G hG e h]
  unfold score logit kq
  simp only [hK, hQ]

include hV hGT

/-- The first launch's message is the edge's message. -/
theorem msgOf_at (e : Fin 800000) (c : Fin 128) : msgOf KS QD VS G GT (ix2 e c) = msg q k v iS iD e c := by
  show VS (ix2 e c) * ∑ h : Fin 8, scoreOf KS QD G (ix2 e h) * GT (ix2 h c) = _
  rw [sum_group_mul (fun h => scoreOf KS QD G (ix2 e h)) (fun h => GT (ix2 h c)) c (fun h => hGT h c),
    scoreOf_at q k iS iD KS QD G hK hQ hG e (head c), hV]
  rfl

omit hK hQ hG hV

/-- The second launch's quotient of the two segment sums is the result. -/
theorem divOf_at (WV : SN128.Idx → EReal) (Z8 : SN8.Idx → EReal)
    (hWV : ∀ (n : Fin 50000) (c : Fin 128), WV (ix2 n c) = wV q k v iS iD iR n c)
    (hZ : ∀ (n : Fin 50000) (h : Fin 8), Z8 (ix2 n h) = Z q k iS iD iR n h) (n : Fin 50000) (c : Fin 128) :
    divOf WV Z8 GT (ix2 n c) = out q k v iS iD iR (ix3 ⟨0, Nat.one_pos⟩ n c) := by
  show Ideal.div (WV (ix2 n c)) ((∑ h : Fin 8, Z8 (ix2 n h) * GT (ix2 h c)) + eps) = _
  rw [sum_group_mul (fun h => Z8 (ix2 n h)) (fun h => GT (ix2 h c)) c (fun h => hGT h c), hWV, hZ]
  exact (out_at q k v iS iD iR n c).symm

end Laws

end Cert.EdgeAttn

end
-- ==== Proof.KValue.lean ====
/-
  The program's result is the aggregated edge attention, index by index.

  Reading the result at (0, n, c): the reshape reads the second launch's quotient at (n, c); the quotient divides the
  segment sum of the messages at (n, c) by the segment sum of the scores at (n, ·) contracted with the grouping matrix —
  which picks the score sum of feature c's head — plus ε. A segment sum onto a zero array at row n is the sum over the
  edges whose destination word is n. A message at (e, c) is the value row at the edge's source times the scores at (e, ·)
  contracted with the grouping matrix: the score of c's head. A score at (e, h) contracts the products key·query·¼ with
  the grouping matrix: the sum over head h's sixteen features, each product divided by four. A gathered row at (e, c)
  is the argument's row "lookup word of e, clamped into the node range", column c.
-/
import proofs.«136254_j36404142800928_2_alg».proof.Proof.KIndex
import proofs.«136254_j36404142800928_2_alg».proof.Proof.GroupMat
import proofs.«136254_j36404142800928_2_alg».proof.Proof.SpecLaws

set_option maxRecDepth 16384

noncomputable section

open scoped BigOperators

namespace Cert.KernelIdeal.Glue

open Cert.KernelIdeal Cert.KernelIdeal.Gen Cert.EdgeAttn Cert.KernelIdeal.GroupMat
open Idealize.ShloMosaic Idealize.ShloMosaic.TcCoe Idealize.SL.Sem Idealize.ShloMosaic.ValueIdx

section Value
variable (m : (ℓ : Loc nD τ sig) → Buf (Elt Ideal) ℓ) (ρ : Dev nD → PrngReg) (hR : RegionFacts)
include hR

/-- The result buffer at the last boundary is the aggregated edge attention of the four arguments, the three index
    arrays being the looked-up source and destination words and the raw destination words. -/
theorem kernel_value (c : Dev nD) :
    W5 m ρ c (Proc.devRef .tc main_v39)
      = out (argQ m c) (argK m c) (argV m c) (lookupWords (srcWords (argE m c))) (lookupWords (dstWords (argE m c)))
          (segmentWords (dstWords (argE m c))) := by
  -- the gathered rows
  have hK : ∀ (e : Fin 800000) (k : Fin 128), W1 m ρ c (Proc.devRef .tc main_v16) (ix2 e k)
      = argK m c (ix3 ⟨0, Nat.one_pos⟩ (rowOf (lookupWords (srcWords (argE m c))) e) k) := by
    intro e k; rw [keyRows, gather_apply, rows_apply]
  have hQ : ∀ (e : Fin 800000) (k : Fin 128), W1 m ρ c (Proc.devRef .tc main_v23) (ix2 e k)
      = argQ m c (ix3 ⟨0, Nat.one_pos⟩ (rowOf (lookupWords (dstWords (argE m c))) e) k) := by
    intro e k; rw [queryRows, gather_apply, rows_apply]
  have hV : ∀ (e : Fin 800000) (k : Fin 128), W1 m ρ c (Proc.devRef .tc main_v30) (ix2 e k)
      = argV m c (ix3 ⟨0, Nat.one_pos⟩ (rowOf (lookupWords (srcWords (argE m c))) e) k) := by
    intro e k; rw [valueRows, gather_apply, rows_apply]
  -- the grouping matrices
  have hG : ∀ (k : Fin 128) (h : Fin 8),
      (W1 m ρ c (Proc.devRef .tc main_cst) : SG.Idx → EReal) (ix2 k h) = (if head k = h then (1 : EReal) else (0 : EReal)) := by
    intro k h; rw [groupMat]; exact g_entry k h
  have hGT : ∀ (h : Fin 8) (k : Fin 128),
      (W1 m ρ c (Proc.devRef .tc main_cst_0) : SGT.Idx → EReal) (ix2 h k) = (if head k = h then (1 : EReal) else (0 : EReal)) := by
    intro h k; rw [groupMatT]; exact gt_entry h k
  have hGT3 : ∀ (h : Fin 8) (k : Fin 128),
      (W3 m ρ c (Proc.devRef .tc main_cst_0) : SGT.Idx → EReal) (ix2 h k) = (if head k = h then (1 : EReal) else (0 : EReal)) := by
    intro h k; rw [groupMatT_kept', groupMatT_kept]; exact hGT h k
  -- the first launch's outputs
  have hS : ∀ (e : Fin 800000) (h : Fin 8), W2 m ρ c (Proc.devRef .tc main_v31_1) (ix2 e h)
      = score (argQ m c) (argK m c) (lookupWords (srcWords (argE m c))) (lookupWords (dstWords (argE m c))) e h := by
    intro e h
    rw [scoreArr m ρ hR c]
    exact scoreOf_at _ _ _ _ _ _ _ hK hQ hG e h
  have hM : ∀ (e : Fin 800000) (k : Fin 128), W2 m ρ c (Proc.devRef .tc main_v31_0) (ix2 e k)
      = msg (argQ m c) (argK m c) (argV m c) (lookupWords (srcWords (argE m c))) (lookupWords (dstWords (argE m c))) e k := by
    intro e k
    rw [msgArr m ρ hR c]
    exact msgOf_at _ _ _ _ _ _ _ _ _ _ hK hQ hV hG hGT e k
  -- the segment sums
  have hW : W2 m ρ c (Proc.devRef .tc main_v9) = dstWords (argE m c) := (dstVec_kept m ρ c).trans (dstVec m ρ c)
  have hWV : ∀ (n : Fin 50000) (k : Fin 128), W3 m ρ c (Proc.devRef .tc main_v34) (ix2 n k)
      = wV (argQ m c) (argK m c) (argV m c) (lookupWords (srcWords (argE m c))) (lookupWords (dstWords (argE m c)))
          (segmentWords (dstWords (argE m c))) n k := by
    intro n k
    refine (congrFun (sumMsg m ρ c) (ix2 n k)).trans ?_
    refine (segsum128_zero _ _ n k).trans ?_
    rw [hW]
    unfold wV wordOf
    exact Finset.sum_congr rfl fun e _ => by rw [hM]
  have hZ : ∀ (n : Fin 50000) (h : Fin 8), W3 m ρ c (Proc.devRef .tc main_v37) (ix2 n h)
      = Z (argQ m c) (argK m c) (lookupWords (srcWords (argE m c))) (lookupWords (dstWords (argE m c)))
          (segmentWords (dstWords (argE m c))) n h := by
    intro n h
    refine (congrFun (sumScore m ρ c) (ix2 n h)).trans ?_
    refine (segsum8_zero _ _ n h).trans ?_
    rw [hW]
    unfold Z wordOf
    exact Finset.sum_congr rfl fun e _ => by rw [hS]
  -- the quotient, reshaped
  funext i
  obtain ⟨z, n, k, rfl⟩ : ∃ (z : Fin 1) (n : Fin 50000) (k : Fin 128), i = ix3 z n k := ⟨i 0, i 1, i 2, eq_ix3 i⟩
  obtain rfl : z = ⟨0, Nat.one_pos⟩ := Subsingleton.elim _ _
  refine (congrFun (result m ρ c) (ix3 ⟨0, Nat.one_pos⟩ n k)).trans ?_
  refine (unrows_apply _ n k).trans ?_
  rw [quotArr m ρ hR c]
  exact divOf_at _ _ _ _ _ _ _ hGT3 _ _ hWV hZ n k

end Value

end Cert.KernelIdeal.Glue

end
-- ==== Proof.Bridge.lean ====
/-
  The two programs end with equal results.

  Both compute the aggregated edge attention (`Cert.EdgeAttn.out`) of the same three float arguments and the same three
  index arrays: the two programs derive the looked-up source words, the looked-up destination words and the raw
  destination words from the edge-word argument by the same operations, so from memories that agree on the arguments the
  two results are one array.
-/
import proofs.«136254_j36404142800928_2_alg».proof.Defs
import proofs.«136254_j36404142800928_2_alg».proof.Proof.KRun
import proofs.«136254_j36404142800928_2_alg».proof.Proof.KValue
import proofs.«136254_j36404142800928_2_alg».proof.Proof.Gen.ReferenceIdeal.Run
import proofs.«136254_j36404142800928_2_alg».proof.Proof.Gen.ReferenceIdeal.Read
import proofs.«136254_j36404142800928_2_alg».proof.Proof.Gen.Pre_finite_inputs

set_option maxRecDepth 16384

noncomputable section

namespace Cert.Proof.Bridge

open Idealize.ShloMosaic Idealize.ShloMosaic.TcCoe Idealize.SL.Sem Cert.EdgeAttn

/-! ## The index arrays are the same terms of the edge words in both programs -/

theorem srcLookup_eq (w : IVec Cert.ReferenceIdeal.S2x800000 32) :
    Cert.ReferenceIdeal.Read.val_main_v12 (F := Ideal) w
      = Cert.KernelIdeal.Glue.lookupWords (Cert.KernelIdeal.Glue.srcWords w) := rfl

theorem dstLookup_eq (w : IVec Cert.ReferenceIdeal.S2x800000 32) :
    Cert.ReferenceIdeal.Read.val_main_v19 (F := Ideal) w
      = Cert.KernelIdeal.Glue.lookupWords (Cert.KernelIdeal.Glue.dstWords w) := rfl

theorem dstSegment_eq (w : IVec Cert.ReferenceIdeal.S2x800000 32) :
    Cert.ReferenceIdeal.Read.val_main_v38 (F := Ideal) w
      = Cert.KernelIdeal.Glue.segmentWords (Cert.KernelIdeal.Glue.dstWords w) := rfl

/-! ## The claim's last conjunct -/

/-- Given what the two launches leave in their output arrays (`hR`) and the reference's result as the aggregated edge
    attention (`href`), the two idealized programs end with equal results from memories agreeing on the arguments. -/
theorem algebraic_of (hR : Cert.KernelIdeal.Glue.RegionFacts)
    (href : ∀ (x0 x1 x2 : FVec Ideal Cert.ReferenceIdeal.S1x50000x128 .f32) (x3 : IVec Cert.ReferenceIdeal.S2x800000 32),
      Cert.ReferenceIdeal.Read.val_main_v47 (F := Ideal) x0 x1 x2 x3
        = out x0 x1 x2 (Cert.ReferenceIdeal.Read.val_main_v12 (F := Ideal) x3)
            (Cert.ReferenceIdeal.Read.val_main_v19 (F := Ideal) x3) (Cert.ReferenceIdeal.Read.val_main_v38 (F := Ideal) x3)) :
    Cert.algebraic_KernelIdeal_ReferenceIdeal := by
  intro m ρ m' ρ' _ hagree
  refine ⟨fun c => out (Cert.KernelIdeal.Glue.argQ m c) (Cert.KernelIdeal.Glue.argK m c) (Cert.KernelIdeal.Glue.argV m c)
      (Cert.KernelIdeal.Glue.lookupWords (Cert.KernelIdeal.Glue.srcWords (Cert.KernelIdeal.Glue.argE m c)))
      (Cert.KernelIdeal.Glue.lookupWords (Cert.KernelIdeal.Glue.dstWords (Cert.KernelIdeal.Glue.argE m c)))
      (Cert.KernelIdeal.Glue.segmentWords (Cert.KernelIdeal.Glue.dstWords (Cert.KernelIdeal.Glue.argE m c))), ?_, ?_⟩
  · exact (θ_run Cert.KernelIdeal.defs _ _).mono
      (fun _ h c => ⟨(h c).1.trans (Cert.KernelIdeal.Glue.kernel_value m ρ hR c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, href, srcLookup_eq, dstLookup_eq, dstSegment_eq,
      (hagree c).1, (hagree c).2.1, (hagree c).2.2.1, (hagree c).2.2.2]

end Cert.Proof.Bridge

end
-- ==== Proof.LibGatherSlabs.lean ====
/-
  A gather of slabs, read at one element.

  The operand is an array `[N, A, B]`: `N` slabs, each an `A × B` matrix. A lookup `x[idx]` along the leading axis reads,
  for each result slab, one index word; the word is read as a signed integer and clamped into `[0, N − 1]` (so that the
  slice of one slab fits in the operand), and the result slab is the operand's slab at that clamped position:

    result (e, a, b) = x (clamp (idx e), a, b),      clamp z = min (toNat z) (N − 1).

  A negative word reads slab 0, a word past the end reads the last slab. The start indices have shape `[E, 1]` (one word
  per result slab), the result `[E, A, B]`. The element type is arbitrary: a gather only moves elements.
-/
import Idealize.ShloMosaic.PureOps.Ideal
import Idealize.ShloMosaic.Lib.ValueIdx

noncomputable section

namespace Idealize.ShloMosaic.GatherAt

open Idealize.ShloMosaic Idealize.ShloMosaic.ValueIdx

section Slabs
variable {α : Type} {N A B E w : Nat}

/-- The dimension numbers of a slab gather: the result's axes 1 and 2 are the offset axes and read the operand's axes 1
    and 2 (a whole slab is one slice), the operand's axis 0 is collapsed and is the one the index word addresses, the
    index vector is the start indices' axis 1 (of extent one). -/
abbrev slabGDims (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

variable (wf : GatherDims.WF ⟨3, ![N, A, B]⟩ ⟨2, ![E, 1]⟩ ⟨3, ![E, A, B]⟩ [1, 2] [0] [] [0] [] 1 ![1, A, B])

/-- On the addressed axis the slice starts at the result slab's index word, read signed and clamped into `[0, N − 1]`. -/
theorem slabGDims_start0 (j : (⟨3, ![E, A, B]⟩ : Shape).Idx) (idx : IVec ⟨2, ![E, 1]⟩ w) :
    (slabGDims N A B E wf).start j idx 0 = min (idx (ix2 (j 0) ⟨0, Nat.one_pos⟩)).toInt.toNat (N - 1) := by
  unfold GatherDims.start
  rw [dif_pos (show (0 : Fin 3) ∈ (slabGDims N A B E wf).startIndexMap from List.mem_singleton.mpr rfl)]
  have hsi : (slabGDims N A B E wf).siIdx j ⟨List.idxOf (0 : Fin 3) (slabGDims N A B E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On a slab's own two axes the slice starts at zero. -/
theorem slabGDims_start1 (j : (⟨3, ![E, A, B]⟩ : Shape).Idx) (idx : IVec ⟨2, ![E, 1]⟩ w) :
    (slabGDims N A B E wf).start j idx 1 = 0 := by
  unfold GatherDims.start
  rw [dif_neg (show ¬ (1 : Fin 3) ∈ (slabGDims N A B E wf).startIndexMap from by simp)]

theorem slabGDims_start2 (j : (⟨3, ![E, A, B]⟩ : Shape).Idx) (idx : IVec ⟨2, ![E, 1]⟩ w) :
    (slabGDims N A B E wf).start j idx 2 = 0 := by
  unfold GatherDims.start
  rw [dif_neg (show ¬ (2 : Fin 3) ∈ (slabGDims N A B E wf).startIndexMap from by simp)]

/-- The addressed axis is collapsed: it has no offset coordinate. -/
theorem slabGDims_off0 (j : (⟨3, ![E, A, B]⟩ : Shape).Idx) : (slabGDims N A B E wf).offCoord j 0 = 0 :=
  GatherDims.offCoord_eq_zero _ _ _ (fun h => ((GatherDims.mem_sKept _ _).mp h).1 (List.mem_singleton.mpr rfl))

/-- The offset coordinate on the operand's axis 1 is the result's coordinate on axis 1. -/
theorem slabGDims_off1 (j : (⟨3, ![E, A, B]⟩ : Shape).Idx) : (slabGDims N A B E wf).offCoord j 1 = (j 1).val := by
  unfold GatherDims.offCoord
  rw [dif_pos (show (1 : Fin 3) ∈ (slabGDims N A B E wf).sKept from by simp [GatherDims.sKept, Shape.kept])]
  rfl

/-- The offset coordinate on the operand's axis 2 is the result's coordinate on axis 2. -/
theorem slabGDims_off2 (j : (⟨3, ![E, A, B]⟩ : Shape).Idx) : (slabGDims N A B E wf).offCoord j 2 = (j 2).val := by
  unfold GatherDims.offCoord
  rw [dif_pos (show (2 : Fin 3) ∈ (slabGDims N A B E wf).sKept from by simp [GatherDims.sKept, Shape.kept])]
  rfl

/-- THE SLAB GATHER READ AT `(e, a, b)`: the operand at slab "index word of `e`, read signed and clamped into
    `[0, N − 1]`", position `(a, b)`. -/
theorem slabGather_apply (hN : 0 < N)
    (x : (⟨3, ![N, A, B]⟩ : Shape).Idx → α) (idx : IVec ⟨2, ![E, 1]⟩ w) (e : Fin E) (a : Fin A) (b : Fin B) :
    Host.gather (slabGDims N A B E wf) x idx (ix3 e a b)
      = x (ix3 ⟨min (idx (ix2 e ⟨0, Nat.one_pos⟩)).toInt.toNat (N - 1), by omega⟩ a b) := by
  unfold Host.gather
  congr 1
  funext c
  refine Fin.ext ?_
  match c with
  | ⟨0, _⟩ =>
    show (slabGDims N A B E wf).start (ix3 e a b) idx 0 + (slabGDims N A B E wf).batchCoord (ix3 e a b) 0
      + (slabGDims N A B E wf).offCoord (ix3 e a b) 0 = _
    rw [GatherDims.batchCoord_eq_zero _ _ _ List.not_mem_nil, slabGDims_off0, slabGDims_start0]
    rfl
  | ⟨1, _⟩ =>
    show (slabGDims N A B E wf).start (ix3 e a b) idx 1 + (slabGDims N A B E wf).batchCoord (ix3 e a b) 1
      + (slabGDims N A B E wf).offCoord (ix3 e a b) 1 = _
    rw [GatherDims.batchCoord_eq_zero _ _ _ List.not_mem_nil, slabGDims_off1, slabGDims_start1]
    simp only [Nat.add_zero, Nat.zero_add]
    rfl
  | ⟨2, _⟩ =>
    show (slabGDims N A B E wf).start (ix3 e a b) idx 2 + (slabGDims N A B E wf).batchCoord (ix3 e a b) 2
      + (slabGDims N A B E wf).offCoord (ix3 e a b) 2 = _
    rw [GatherDims.batchCoord_eq_zero _ _ _ List.not_mem_nil, slabGDims_off2, slabGDims_start2]
    simp only [Nat.add_zero, Nat.zero_add]
    rfl

end Slabs

end Idealize.ShloMosaic.GatherAt

end
-- ==== Proof.RefGather.lean ====
/-
  The reference's three lookups, read at one element.

  The reference regroups each argument array `[1, 50000, 128]` as `[50000, 8, 16]` (node, head, position in the head):
  entry `(n, h, d)` of the regrouped array is entry `(0, n, 16 h + d)` of the argument. It then looks up, per edge, the
  key's slab at the edge's source word, the query's slab at the edge's destination word and the value's slab at the
  source word again: element `(e, h, d)` of a lookup is the argument at `(0, row e, 16 h + d)`, where `row e` is the
  edge's index word read signed and clamped into the node range.
-/
import proofs.«136254_j36404142800928_2_alg».proof.Proof.Gen.ReferenceIdeal.Read
import proofs.«136254_j36404142800928_2_alg».proof.Proof.Spec
import proofs.«136254_j36404142800928_2_alg».proof.Proof.LibGatherSlabs

noncomputable section

namespace Cert.ReferenceIdeal.RefValue

open Cert.ReferenceIdeal Cert.ReferenceIdeal.Gen Cert.ReferenceIdeal.Read Cert.EdgeAttn
open Idealize.ShloMosaic Idealize.ShloMosaic.ValueIdx

/-- The regrouped array at `(n, h, d)` is the argument at `(0, n, 16 h + d)`. -/
theorem reshape_v0 (x : (⟨S1x50000x128, .f32⟩ : BufTy).Contents (Elt Ideal)) (n : Fin 50000) (h : Fin 8) (d : Fin 16) :
    val_main_v0 (F := Ideal) x (ix3 n h d) = x (ix3 ⟨0, Nat.one_pos⟩ n (col h d)) := by
  rw [val_main_v0_apply]
  have hn := n.isLt
  have hh := h.isLt
  have hd := d.isLt
  refine congrArg x (funext fun a => Fin.ext ?_)
  match a with
  | ⟨0, _⟩ => rfl
  | ⟨1, _⟩ => show ((n.val * 8 + h.val) * 16 + d.val) / 128 % 50000 = n.val; omega
  | ⟨2, _⟩ => show ((n.val * 8 + h.val) * 16 + d.val) % 128 = 16 * h.val + d.val; omega

/-- The three regroupings are the same function of their argument. -/
theorem reshape_v1 (x : (⟨S1x50000x128, .f32⟩ : BufTy).Contents (Elt Ideal)) (n : Fin 50000) (h : Fin 8) (d : Fin 16) :
    val_main_v1 (F := Ideal) x (ix3 n h d) = x (ix3 ⟨0, Nat.one_pos⟩ n (col h d)) := reshape_v0 x n h d

theorem reshape_v2 (x : (⟨S1x50000x128, .f32⟩ : BufTy).Contents (Elt Ideal)) (n : Fin 50000) (h : Fin 8) (d : Fin 16) :
    val_main_v2 (F := Ideal) x (ix3 n h d) = x (ix3 ⟨0, Nat.one_pos⟩ n (col h d)) := reshape_v0 x n h d

/-- A lookup of slabs at `(e, h, d)`: the operand at the slab the edge's word addresses, same position. -/
theorem gather_slab (y : (⟨S50000x8x16, .f32⟩ : BufTy).Contents (Elt Ideal))
    (I : (⟨S800000x1, .i32⟩ : BufTy).Contents (Elt Ideal)) (e : Fin 800000) (h : Fin 8) (d : Fin 16) :
    Host.gather gather_S50000x8x16_S800000x1_S800000x8x16_12_0_n_n_0_1_1816 y I (ix3 e h d) = y (ix3 (rowOf I e) h d) :=
  GatherAt.slabGather_apply (N := 50000) (A := 8) (B := 16) (E := 800000)
    Facts₀.gather_S50000x8x16_S800000x1_S800000x8x16_12_0_n_n_0_1_1816_wf (by norm_num) y I e h d

/-- The value lookup is addressed by the same words as the key lookup (the source words, normalised the same way). -/
theorem v33_eq (x3 : (⟨S2x800000, .i32⟩ : BufTy).Contents (Elt Ideal)) :
    val_main_v33 (F := Ideal) x3 = val_main_v12 (F := Ideal) x3 := rfl

/-- The key at the edge's source. -/
theorem gathK (x1 : (⟨S1x50000x128, .f32⟩ : BufTy).Contents (Elt Ideal)) (x3 : (⟨S2x800000, .i32⟩ : BufTy).Contents (Elt Ideal))
    (e : Fin 800000) (h : Fin 8) (d : Fin 16) :
    val_main_v13 (F := Ideal) x1 x3 (ix3 e h d)
      = x1 (ix3 ⟨0, Nat.one_pos⟩ (rowOf (val_main_v12 (F := Ideal) x3) e) (col h d)) := by
  unfold val_main_v13
  rw [gather_slab, reshape_v1]

/-- The query at the edge's destination. -/
theorem gathQ (x0 : (⟨S1x50000x128, .f32⟩ : BufTy).Contents (Elt Ideal)) (x3 : (⟨S2x800000, .i32⟩ : BufTy).Contents (Elt Ideal))
    (e : Fin 800000) (h : Fin 8) (d : Fin 16) :
    val_main_v20 (F := Ideal) x0 x3 (ix3 e h d)
      = x0 (ix3 ⟨0, Nat.one_pos⟩ (rowOf (val_main_v19 (F := Ideal) x3) e) (col h d)) := by
  unfold val_main_v20
  rw [gather_slab, reshape_v0]

/-- The value at the edge's source. -/
theorem gathV (x2 : (⟨S1x50000x128, .f32⟩ : BufTy).Contents (Elt Ideal)) (x3 : (⟨S2x800000, .i32⟩ : BufTy).Contents (Elt Ideal))
    (e : Fin 800000) (h : Fin 8) (d : Fin 16) :
    val_main_v34 (F := Ideal) x2 x3 (ix3 e h d)
      = x2 (ix3 ⟨0, Nat.one_pos⟩ (rowOf (val_main_v12 (F := Ideal) x3) e) (col h d)) := by
  unfold val_main_v34
  rw [v33_eq, gather_slab, reshape_v2]

end Cert.ReferenceIdeal.RefValue

end
-- ==== Proof.RefScore.lean ====
/-
  The reference's per-edge quantities: the score of an edge and head, and the message of an edge and feature.

  Per edge `e`, head `h` and position `d` the reference multiplies the key at the source by the query at the destination,
  divides by four, sums the sixteen positions of the head (starting from the word zero, which adds nothing), clamps the sum
  into `[−5, 5]` (the lower bound first, then the upper) and exponentiates: that is `score e h`. The message is the value
  at the source times the score of the feature's head.
-/
import proofs.«136254_j36404142800928_2_alg».proof.Proof.RefGather

noncomputable section

open scoped BigOperators

namespace Cert.ReferenceIdeal.RefValue

open Cert.ReferenceIdeal Cert.ReferenceIdeal.Gen Cert.ReferenceIdeal.Read Cert.EdgeAttn
open Idealize.ShloMosaic Idealize.ShloMosaic.ValueIdx

variable (x0 x1 x2 : (⟨S1x50000x128, .f32⟩ : BufTy).Contents (Elt Ideal))
  (x3 : (⟨S2x800000, .i32⟩ : BufTy).Contents (Elt Ideal))

/-- One term of the logit: the product of key and query, divided by four. -/
theorem v23_at (e : Fin 800000) (h : Fin 8) (d : Fin 16) :
    val_main_v23 (F := Ideal) x0 x1 x3 (ix3 e h d)
      = Ideal.div (kq x0 x1 (val_main_v12 (F := Ideal) x3) (val_main_v19 (F := Ideal) x3) e (col h d)) four := by
  rw [val_main_v23_apply, val_main_v21_apply, val_main_v22_apply, val_main_cst_apply, gathK, gathQ]
  rfl

/-- The exponential of the clamped logit is the score. -/
theorem score_at (e : Fin 800000) (h : Fin 8) :
    val_main_v27 (F := Ideal) x0 x1 x3 (ix3 e h ⟨0, Nat.one_pos⟩)
      = score x0 x1 (val_main_v12 (F := Ideal) x3) (val_main_v19 (F := Ideal) x3) e h := by
  rw [val_main_v27_apply, val_main_v26_apply, val_main_call0_v4_apply, val_main_call0_v3_apply, val_main_cst_5_apply,
    val_main_call0_v2_apply, val_main_call0_v1_apply, val_main_call0_v0_apply, val_main_cst_4_apply,
    val_main_v25_apply, val_main_v24_apply, val_main_cst_3_apply]
  show Ideal.exp (min hi (max lo (Ideal.ofBits .f32 0x00000000#32
      + ∑ k : Fin 16, val_main_v23 (F := Ideal) x0 x1 x3
          (idx_main_v24 (idx_main_v25 (ix3 e h ⟨0, Nat.one_pos⟩)) k))))
    = Ideal.exp (min hi (max lo (∑ d : Fin 16,
        Ideal.div (kq x0 x1 (val_main_v12 (F := Ideal) x3) (val_main_v19 (F := Ideal) x3) e (col h d)) four)))
  rw [Ideal.ofBits_zero_f32, zero_add]
  refine congrArg (fun s => Ideal.exp (min hi (max lo s))) (Finset.sum_congr rfl fun k _ => ?_)
  have hi : idx_main_v24 (idx_main_v25 (ix3 e h (⟨0, Nat.one_pos⟩ : Fin 1))) k = ix3 e h k :=
    funext fun a => Fin.ext (by match a with | ⟨0, _⟩ => rfl | ⟨1, _⟩ => rfl | ⟨2, _⟩ => rfl)
  rw [hi, v23_at]

/-- The value at the source times the score of the feature's head is the message. -/
theorem msg_at (e : Fin 800000) (h : Fin 8) (d : Fin 16) :
    val_main_v36 (F := Ideal) x0 x1 x2 x3 (ix3 e h d)
      = msg x0 x1 x2 (val_main_v12 (F := Ideal) x3) (val_main_v19 (F := Ideal) x3) e (col h d) := by
  rw [val_main_v36_apply, val_main_v35_apply, gathV]
  have hi : idx_main_v35 (ix3 e h d) = ix3 e h (⟨0, Nat.one_pos⟩ : Fin 1) :=
    funext fun a => Fin.ext (by match a with | ⟨0, _⟩ => rfl | ⟨1, _⟩ => rfl | ⟨2, _⟩ => rfl)
  rw [hi, score_at]
  unfold msg
  rw [head_col]
  rfl

end Cert.ReferenceIdeal.RefValue

end
-- ==== Proof.LibScatterAddSlabs.lean ====
/-
  An additive scatter of slabs, read at one element.

  The operand is an array `[N, A, B]`: `N` slabs, each an `A × B` matrix. The host's accumulating scatter
  `x.at[idx].add(upd)` along the leading axis, at the ideal instance, is at each element of the operand that element plus
  the sum of the update elements whose destination is that element. There is one index word per update slab (indices
  `[E, 1]`, updates `[E, A, B]`). Update `(e, a, b)` lands on `(idx e, a, b)` when `0 ≤ idx e < N` (the word read signed,
  nothing clamped) and is dropped otherwise. So element `(n, a, b)` receives

    ∑ e, [idx e = n] · upd (e, a, b) :

  only position `(a, b)` of an update slab reaches position `(a, b)` of a slab, and the sum over "updates that land here"
  is a sum over the update SLABS guarded by "this slab's index word is my slab".

  Nothing here needs the summands to be finite: the sums are only re-indexed.
-/
import Idealize.ShloMosaic.PureOps.Ideal
import Idealize.ShloMosaic.Lib.ValueIdx

noncomputable section

open scoped BigOperators

namespace Idealize.ShloMosaic.ScatterAddAt

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section Slabs
variable {N A B E w : Nat}

/-- The dimension numbers of a slab scatter: the updates' axes 1 and 2 are the window axes and go to the operand's axes 1
    and 2, the operand's axis 0 is the one the index word addresses, the index vector is the indices' axis 1 (of extent
    one). -/
abbrev slabDims (N A B E : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable (wf : ScatterDims.WF ⟨3, ![N, A, B]⟩ ⟨2, ![E, 1]⟩ ⟨3, ![E, A, B]⟩ [1, 2] [0] [0] 1)

/-- The index word of update slab `e`, read signed. -/
abbrev slabWord (idx : IVec ⟨2, ![E, 1]⟩ w) (e : Fin E) : Int := (idx (ix2 e ⟨0, Nat.one_pos⟩)).toInt

/-- On the addressed axis the window starts at the update slab's index word, read signed. -/
theorem slabDims_start0 (j : (⟨3, ![E, A, B]⟩ : Shape).Idx) (idx : IVec ⟨2, ![E, 1]⟩ w) :
    (slabDims N A B E wf).start j idx 0 = slabWord idx (j 0) := by
  unfold ScatterDims.start
  rw [dif_pos (show (0 : Fin 3) ∈ (slabDims N A B E wf).scatterDimsToOperandDims from List.mem_singleton.mpr rfl)]
  have hsi : (slabDims N A B E wf).siIdx j ⟨List.idxOf (0 : Fin 3) (slabDims N A B E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the two window axes the window starts at zero. -/
theorem slabDims_start1 (j : (⟨3, ![E, A, B]⟩ : Shape).Idx) (idx : IVec ⟨2, ![E, 1]⟩ w) :
    (slabDims N A B E wf).start j idx 1 = 0 := by
  unfold ScatterDims.start
  rw [dif_neg (show ¬ (1 : Fin 3) ∈ (slabDims N A B E wf).scatterDimsToOperandDims from by simp)]

theorem slabDims_start2 (j : (⟨3, ![E, A, B]⟩ : Shape).Idx) (idx : IVec ⟨2, ![E, 1]⟩ w) :
    (slabDims N A B E wf).start j idx 2 = 0 := by
  unfold ScatterDims.start
  rw [dif_neg (show ¬ (2 : Fin 3) ∈ (slabDims N A B E wf).scatterDimsToOperandDims from by simp)]

/-- The addressed axis has no window coordinate. -/
theorem slabDims_window0 (j : (⟨3, ![E, A, B]⟩ : Shape).Idx) : (slabDims N A B E wf).window j 0 = 0 := by
  unfold ScatterDims.window
  rw [dif_neg (show ¬ (0 : Fin 3) ∈ (slabDims N A B E wf).sKept from by simp [ScatterDims.sKept, Shape.kept])]

/-- The window coordinate on the operand's axis 1 is the update's coordinate on axis 1. -/
theorem slabDims_window1 (j : (⟨3, ![E, A, B]⟩ : Shape).Idx) : (slabDims N A B E wf).window j 1 = (j 1).val := by
  unfold ScatterDims.window
  rw [dif_pos (show (1 : Fin 3) ∈ (slabDims N A B E wf).sKept from by simp [ScatterDims.sKept, Shape.kept])]
  rfl

/-- The window coordinate on the operand's axis 2 is the update's coordinate on axis 2. -/
theorem slabDims_window2 (j : (⟨3, ![E, A, B]⟩ : Shape).Idx) : (slabDims N A B E wf).window j 2 = (j 2).val := by
  unfold ScatterDims.window
  rw [dif_pos (show (2 : Fin 3) ∈ (slabDims N A B E wf).sKept from by simp [ScatterDims.sKept, Shape.kept])]
  rfl

/-- WHERE AN UPDATE LANDS: update `j = (e, a, b)` lands on operand element `i` exactly when slab `e`'s index word is
    `i`'s slab and `(a, b)` is `i`'s position in the slab. (A word outside `[0, N)` is no slab: the update is dropped.) -/
theorem slabDims_resultIdx_eq_some_iff (j : (⟨3, ![E, A, B]⟩ : Shape).Idx) (idx : IVec ⟨2, ![E, 1]⟩ w)
    (i : (⟨3, ![N, A, B]⟩ : Shape).Idx) :
    (slabDims N A B E wf).resultIdx? j idx = some i
      ↔ slabWord idx (j 0) = ((i 0).val : Int) ∧ (j 1).val = (i 1).val ∧ (j 2).val = (i 2).val := by
  have hi0 : (i 0).val < N := (i 0).isLt
  have hi1 : (i 1).val < A := (i 1).isLt
  have hi2 : (i 2).val < B := (i 2).isLt
  have hj1 : (j 1).val < A := (j 1).isLt
  have hj2 : (j 2).val < B := (j 2).isLt
  unfold ScatterDims.resultIdx?
  split
  · next h =>
    rw [Option.some.injEq]
    have h0 := h 0
    rw [slabDims_start0, slabDims_window0] at h0
    constructor
    · intro hi
      have e0 : ((slabDims N A B E wf).start j idx 0 + ((slabDims N A B E wf).window j 0 : Int)).toNat = (i 0).val :=
        congrArg (fun f => (f 0).val) hi
      have e1 : ((slabDims N A B E wf).start j idx 1 + ((slabDims N A B E wf).window j 1 : Int)).toNat = (i 1).val :=
        congrArg (fun f => (f 1).val) hi
      have e2 : ((slabDims N A B E wf).start j idx 2 + ((slabDims N A B E wf).window j 2 : Int)).toNat = (i 2).val :=
        congrArg (fun f => (f 2).val) hi
      rw [slabDims_start0, slabDims_window0] at e0
      rw [slabDims_start1, slabDims_window1] at e1
      rw [slabDims_start2, slabDims_window2] at e2
      omega
    · intro ⟨e0, e1, e2⟩
      funext a
      refine Fin.ext ?_
      match a with
      | ⟨0, _⟩ =>
        show ((slabDims N A B E wf).start j idx 0 + ((slabDims N A B E wf).window j 0 : Int)).toNat = (i 0).val
        rw [slabDims_start0, slabDims_window0]; omega
      | ⟨1, _⟩ =>
        show ((slabDims N A B E wf).start j idx 1 + ((slabDims N A B E wf).window j 1 : Int)).toNat = (i 1).val
        rw [slabDims_start1, slabDims_window1]; omega
      | ⟨2, _⟩ =>
        show ((slabDims N A B E wf).start j idx 2 + ((slabDims N A B E wf).window j 2 : Int)).toNat = (i 2).val
        rw [slabDims_start2, slabDims_window2]; omega
  · next h =>
    constructor
    · intro hn; cases hn
    · intro ⟨e0, e1, e2⟩
      refine absurd (fun a => ?_) h
      match a with
      | ⟨0, _⟩ =>
        show 0 ≤ (slabDims N A B E wf).start j idx 0 + ((slabDims N A B E wf).window j 0 : Int)
          ∧ (slabDims N A B E wf).start j idx 0 + ((slabDims N A B E wf).window j 0 : Int) < ((N : Nat) : Int)
        rw [slabDims_start0, slabDims_window0]; omega
      | ⟨1, _⟩ =>
        show 0 ≤ (slabDims N A B E wf).start j idx 1 + ((slabDims N A B E wf).window j 1 : Int)
          ∧ (slabDims N A B E wf).start j idx 1 + ((slabDims N A B E wf).window j 1 : Int) < ((A : Nat) : Int)
        rw [slabDims_start1, slabDims_window1]; omega
      | ⟨2, _⟩ =>
        show 0 ≤ (slabDims N A B E wf).start j idx 2 + ((slabDims N A B E wf).window j 2 : Int)
          ∧ (slabDims N A B E wf).start j idx 2 + ((slabDims N A B E wf).window j 2 : Int) < ((B : Nat) : Int)
        rw [slabDims_start2, slabDims_window2]; omega

/-- THE SLAB SCATTER READ AT `(n, a, b)`: the operand's element plus, over the update slabs whose index word is `n`,
    their entries at position `(a, b)`. -/
theorem slabScatterAdd_apply (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd (slabDims N A B E wf) x idx upd (ix3 n a b)
      = x (ix3 n a b) + ∑ e : Fin E, if (idx (ix2 e ⟨0, Nat.one_pos⟩)).toInt = (n.val : Int) then upd (ix3 e a b) else 0 := by
  unfold Ideal.hostScatterAdd
  congr 1
  rw [Finset.sum_filter, sum_idx3]
  refine Finset.sum_congr rfl fun e _ => ?_
  simp only [slabDims_resultIdx_eq_some_iff]
  by_cases hc : slabWord idx e = (n.val : Int)
  · rw [if_pos hc, Finset.sum_eq_single a]
    · rw [Finset.sum_eq_single b]
      · exact if_pos ⟨hc, rfl, rfl⟩
      · intro b' _ hb
        exact if_neg fun h => hb (Fin.ext h.2.2)
      · intro h; exact absurd (Finset.mem_univ b) h
    · intro a' _ ha
      exact Finset.sum_eq_zero fun b' _ => if_neg fun h => ha (Fin.ext h.2.1)
    · intro h; exact absurd (Finset.mem_univ a) h
  · rw [if_neg hc]
    exact Finset.sum_eq_zero fun a' _ => Finset.sum_eq_zero fun b' _ => if_neg fun h => hc h.1

end Slabs

end Idealize.ShloMosaic.ScatterAddAt

end
-- ==== Proof.RefScatter.lean ====
/-
  The reference's two segment sums as additive scatters of slabs, read at one element.

  Both add update slabs onto an operand along the leading (node) axis, each slab at the node its index word addresses:
  element `(n, h, d)` of the result is the operand's element plus `∑ e, [word e = n] · upd (e, h, d)`. The first has
  slabs of `8 × 16` entries (the messages), the second of `8 × 1` (the scores).
-/
import proofs.«136254_j36404142800928_2_alg».proof.Proof.Gen.ReferenceIdeal.Read
import proofs.«136254_j36404142800928_2_alg».proof.Proof.LibScatterAddSlabs

noncomputable section

open scoped BigOperators

namespace Cert.ReferenceIdeal.RefValue

open Cert.ReferenceIdeal Cert.ReferenceIdeal.Gen
open Idealize.ShloMosaic Idealize.ShloMosaic.ValueIdx

/-- The segment sum of `8 × 16` slabs at `(n, h, d)`. -/
theorem scatter_slab16 (x : FVec Ideal S50000x8x16 .f32) (I : IVec S800000x1 32) (u : FVec Ideal S800000x8x16 .f32)
    (n : Fin 50000) (h : Fin 8) (d : Fin 16) :
    Host.scatterAdd (F := Ideal) (φ := .f32) scatter_S50000x8x16_S800000x1_S800000x8x16_12_0_0_1 x I u (ix3 n h d)
      = x (ix3 n h d) + ∑ e : Fin 800000, if (I (ix2 e ⟨0, Nat.one_pos⟩)).toInt = (n.val : Int) then u (ix3 e h d) else 0 :=
  ScatterAddAt.slabScatterAdd_apply (N := 50000) (A := 8) (B := 16) (E := 800000)
    Facts₀.scatter_S50000x8x16_S800000x1_S800000x8x16_12_0_0_1_wf x I u n h d

/-- The segment sum of `8 × 1` slabs at `(n, h, 0)`. -/
theorem scatter_slab1 (x : FVec Ideal S50000x8x1 .f32) (I : IVec S800000x1 32) (u : FVec Ideal S800000x8x1 .f32)
    (n : Fin 50000) (h : Fin 8) (d : Fin 1) :
    Host.scatterAdd (F := Ideal) (φ := .f32) scatter_S50000x8x1_S800000x1_S800000x8x1_12_0_0_1 x I u (ix3 n h d)
      = x (ix3 n h d) + ∑ e : Fin 800000, if (I (ix2 e ⟨0, Nat.one_pos⟩)).toInt = (n.val : Int) then u (ix3 e h d) else 0 :=
  ScatterAddAt.slabScatterAdd_apply (N := 50000) (A := 8) (B := 1) (E := 800000)
    Facts₀.scatter_S50000x8x1_S800000x1_S800000x8x1_12_0_0_1_wf x I u n h d

end Cert.ReferenceIdeal.RefValue

end
-- ==== Proof.RefSums.lean ====
/-
  The reference's two segment sums are the specification's.

  The messages and the scores are summed at the destination nodes: the reference adds every edge's message slab (and its
  score column) onto an array of zeros at the slab its raw destination word addresses, a word outside the node range
  addressing nothing. Element `(n, h, d)` of the first sum is therefore `∑ e, [word e = n] msg e (16 h + d)` and
  element `(n, h)` of the second `∑ e, [word e = n] score e h`.
-/
import proofs.«136254_j36404142800928_2_alg».proof.Proof.RefScore
import proofs.«136254_j36404142800928_2_alg».proof.Proof.RefScatter

noncomputable section

open scoped BigOperators

namespace Cert.ReferenceIdeal.RefValue

open Cert.ReferenceIdeal Cert.ReferenceIdeal.Gen Cert.ReferenceIdeal.Read Cert.EdgeAttn
open Idealize.ShloMosaic Idealize.ShloMosaic.ValueIdx

variable (x0 x1 x2 : (⟨S1x50000x128, .f32⟩ : BufTy).Contents (Elt Ideal))
  (x3 : (⟨S2x800000, .i32⟩ : BufTy).Contents (Elt Ideal))

/-- Both segment sums are addressed by the same words: the raw destination words. -/
theorem v41_eq : val_main_v41 (F := Ideal) x3 = val_main_v38 (F := Ideal) x3 := rfl

/-- The segment sum of the messages at `(n, h, d)`. -/
theorem wV_at (n : Fin 50000) (h : Fin 8) (d : Fin 16) :
    val_main_v39 (F := Ideal) x0 x1 x2 x3 (ix3 n h d)
      = wV x0 x1 x2 (val_main_v12 (F := Ideal) x3) (val_main_v19 (F := Ideal) x3) (val_main_v38 (F := Ideal) x3) n (col h d) := by
  unfold val_main_v39
  rw [scatter_slab16, val_main_v37_apply, val_main_cst_8_apply]
  refine (congrArg (· + _) Ideal.ofBits_zero_f32).trans ((zero_add _).trans ?_)
  unfold wV wordOf
  refine Finset.sum_congr rfl fun e _ => ?_
  rw [msg_at]

/-- The segment sum of the scores at `(n, h)`. -/
theorem Z_at (n : Fin 50000) (h : Fin 8) :
    val_main_v42 (F := Ideal) x0 x1 x3 (ix3 n h ⟨0, Nat.one_pos⟩)
      = Z x0 x1 (val_main_v12 (F := Ideal) x3) (val_main_v19 (F := Ideal) x3) (val_main_v38 (F := Ideal) x3) n h := by
  unfold val_main_v42
  rw [scatter_slab1, v41_eq, val_main_v40_apply, val_main_cst_9_apply]
  refine (congrArg (· + _) Ideal.ofBits_zero_f32).trans ((zero_add _).trans ?_)
  unfold Z wordOf
  refine Finset.sum_congr rfl fun e _ => ?_
  rw [score_at]

end Cert.ReferenceIdeal.RefValue

end
-- ==== Proof.RefValue.lean ====
/-
  The reference computes the edge attention of the specification.

  The reference divides the segment sum of the messages by the segment sum of the scores plus ε, entry by entry over
  `[50000, 8, 16]` (the normaliser of node `n` and head `h` is shared by the head's sixteen features), and regroups the
  quotient back to `[1, 50000, 128]`: entry `(0, n, c)` reads `(n, c / 16, c % 16)`, and `16 (c / 16) + c % 16 = c`.
-/
import proofs.«136254_j36404142800928_2_alg».proof.Proof.RefSums

noncomputable section

open scoped BigOperators

namespace Cert.ReferenceIdeal.RefValue

open Cert.ReferenceIdeal Cert.ReferenceIdeal.Gen Cert.ReferenceIdeal.Read Cert.EdgeAttn
open Idealize.ShloMosaic Idealize.ShloMosaic.ValueIdx

/-- The host's quotient of `a` by `b` plus the word ε, on the extended reals. -/
theorem div_eps (a b : EReal) :
    FloatOps.hostDivf (F := Ideal) (φ := .f32) a (FloatOps.addf b (FloatOps.ofBits .f32 0x358637BD#32)) = Ideal.div a (b + eps) :=
  rfl

/-- The specification's result at `(0, n, c)`. -/
theorem out_at (q k v : SArg.Idx → EReal) (iS iD iR : IVec SIdx 32) (z : Fin 1) (n : Fin 50000) (c : Fin 128) :
    out q k v iS iD iR (ix3 z n c) = Ideal.div (wV q k v iS iD iR n c) (Z q k iS iD iR n (head c) + eps) := rfl

variable (x0 x1 x2 : (⟨S1x50000x128, .f32⟩ : BufTy).Contents (Elt Ideal))
  (x3 : (⟨S2x800000, .i32⟩ : BufTy).Contents (Elt Ideal))

/-- The quotient at `(n, h, d)`. -/
theorem quot_at (n : Fin 50000) (h : Fin 8) (d : Fin 16) :
    val_main_v46 (F := Ideal) x0 x1 x2 x3 (ix3 n h d)
      = Ideal.div
          (wV x0 x1 x2 (val_main_v12 (F := Ideal) x3) (val_main_v19 (F := Ideal) x3) (val_main_v38 (F := Ideal) x3) n (col h d))
          (Z x0 x1 (val_main_v12 (F := Ideal) x3) (val_main_v19 (F := Ideal) x3) (val_main_v38 (F := Ideal) x3) n h + eps) := by
  have hi : idx_main_v45 (ix3 n h d) = ix3 n h (⟨0, Nat.one_pos⟩ : Fin 1) :=
    funext fun a => Fin.ext (by match a with | ⟨0, _⟩ => rfl | ⟨1, _⟩ => rfl | ⟨2, _⟩ => rfl)
  rw [val_main_v46_apply, val_main_v45_apply, val_main_v44_apply, val_main_v43_apply, val_main_cst_10_apply, hi, wV_at, Z_at]
  exact div_eps _ _

/-- THE REFERENCE IS THE SPECIFICATION: with the query, key and value the three arguments, the source and destination
    rows looked up at the normalised source and destination words and the segment sums addressed by the raw destination
    words. -/
theorem ref_eq (x0 x1 x2 : (⟨S1x50000x128, .f32⟩ : BufTy).Contents (Elt Ideal))
    (x3 : (⟨S2x800000, .i32⟩ : BufTy).Contents (Elt Ideal)) :
    val_main_v47 (F := Ideal) x0 x1 x2 x3
      = out x0 x1 x2 (val_main_v12 (F := Ideal) x3) (val_main_v19 (F := Ideal) x3) (val_main_v38 (F := Ideal) x3) := by
  funext i
  obtain ⟨z, n, c, rfl⟩ : ∃ (z : Fin 1) (n : Fin 50000) (c : Fin 128), i = ix3 z n c := ⟨i 0, i 1, i 2, eq_ix3 i⟩
  have hz := z.isLt
  have hn := n.isLt
  have hc := c.isLt
  have hi : idx_main_v47 (ix3 z n c) = ix3 n (head c) (⟨c.val % 16, Nat.mod_lt _ (by norm_num)⟩ : Fin 16) :=
    funext fun a => Fin.ext (by
      match a with
      | ⟨0, _⟩ => show ((z.val * 50000 + n.val) * 128 + c.val) / 128 = n.val; omega
      | ⟨1, _⟩ => show ((z.val * 50000 + n.val) * 128 + c.val) / 16 % 8 = c.val / 16; omega
      | ⟨2, _⟩ => show ((z.val * 50000 + n.val) * 128 + c.val) % 16 = c.val % 16; omega)
  have hcol : col (head c) (⟨c.val % 16, Nat.mod_lt _ (by norm_num)⟩ : Fin 16) = c :=
    Fin.ext (by show 16 * (c.val / 16) + c.val % 16 = c.val; omega)
  rw [val_main_v47_apply, hi, quot_at, hcol, out_at]

end Cert.ReferenceIdeal.RefValue

end
-- ==== Proof.PlainProduct.lean ====
/-
  A matrix product into a zero accumulator, read entry by entry on the extended reals: for an M×K matrix A and a
  K×N matrix B, contracted over A's columns and B's rows, entry (a, b) of the product is ∑ c, A (a, c) · B (c, b).
-/
import Idealize.ShloMosaic.PureOps.Ideal.Laws
import Idealize.ShloMosaic.Lib.ValueIdx

noncomputable section

open scoped BigOperators

namespace Cert.EdgeAttn

open Idealize.ShloMosaic Idealize.ShloMosaic.ValueIdx

/-- Entry (a, b) of the product of an M×K by a K×N matrix accumulated onto zero is the sum over the contracted
    coordinate of the products of the entries. `w` is the well-formedness of the dimension numbers, which a
    program states. -/
theorem matmul_plain_zero_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.EdgeAttn

end
-- ==== Proof.EdgeBlockValue.lean ====
/-
  The arithmetic of the first launch on one block of 4000 edges, entry by entry on the extended reals: the score
  of edge r and head h is the clamped exponential of the row of key-query products, scaled by a quarter and contracted
  with the grouping matrix; the message at edge r and feature c is the value entry times the row of scores contracted
  with the transposed grouping matrix. Changes of float format are the identity on the extended reals.
-/
import proofs.«136254_j36404142800928_2_alg».proof.Proof.Spec
import proofs.«136254_j36404142800928_2_alg».proof.Proof.PlainProduct
import proofs.«136254_j36404142800928_2_alg».proof.Proof.Gen.KernelIdeal.Skeleton
import Idealize.ShloMosaic.Lib.Pipeline.Value

noncomputable section

open scoped BigOperators

namespace Cert.KernelIdeal.RegionValue

open Idealize.ShloMosaic Idealize.ShloMosaic.ValueIdx
open Cert.KernelIdeal Cert.KernelIdeal.Gen Cert.EdgeAttn

/-- One block's scores, entry by entry. -/
theorem score_block_apply (x0 x1 : FVec Ideal S4000x128 .bf16) (g : FVec Ideal S128x8 .f32) (r : Fin 4000) (h : Fin 8) :
    k0_pay1 (F := Ideal) x0 x1 g (ix2 r h)
      = Ideal.exp (min hi (max lo (∑ c : Fin 128, (x0 (ix2 r c) * x1 (ix2 r c) * quarter) * g (ix2 c h)))) := by
  unfold k0_pay1
  simp only [shapeCast_self]
  refine congrArg Ideal.exp (congrArg (min hi) (congrArg (max lo) ?_))
  exact matmul_plain_zero_apply dot_S4000x128_S128x8_S4000x8_1_0_0_1_n_n_wf (some .fp32) _ g r h

/-- One block's messages, entry by entry, over the block's scores. -/
theorem msg_block_apply (x0 x1 x2 : FVec Ideal S4000x128 .bf16) (g : FVec Ideal S128x8 .f32) (gt : FVec Ideal S8x128 .f32)
    (r : Fin 4000) (c : Fin 128) :
    k0_pay2 (F := Ideal) x0 x1 x2 g gt (ix2 r c)
      = x2 (ix2 r c) * ∑ h : Fin 8, k0_pay1 (F := Ideal) x0 x1 g (ix2 r h) * gt (ix2 h c) := by
  unfold k0_pay2
  simp only [shapeCast_self]
  refine congrArg (x2 (ix2 r c) * ·) ?_
  exact matmul_plain_zero_apply dot_S4000x8_S8x128_S4000x128_1_0_0_1_n_n_wf (some .fp32) _ gt r c

end Cert.KernelIdeal.RegionValue

end
-- ==== Proof.EdgeBlockRead.lean ====
/-
  The first launch, block by block: point t of its grid of 200 reads rows 4000 t … 4000 t + 3999 of the gathered key,
  query and value rows and the two whole grouping matrices; so the scores it computes for its edge r are the scores of
  edge 4000 t + r of the arrays the launch found.
-/
import proofs.«136254_j36404142800928_2_alg».proof.Proof.Spec
import proofs.«136254_j36404142800928_2_alg».proof.Proof.EdgeBlockValue
import proofs.«136254_j36404142800928_2_alg».proof.Proof.Gen.KernelIdeal.Frame
import Idealize.ShloMosaic.Lib.Pipeline.Value

noncomputable section

open scoped BigOperators

namespace Cert.KernelIdeal.RegionValue

open Idealize.ShloMosaic Idealize.ShloMosaic.ValueIdx
open Cert.KernelIdeal Cert.KernelIdeal.Gen Cert.EdgeAttn

open Idealize.ShloMosaic.TcCoe Idealize.SL.Sem
open Idealize.ShloMosaic.Pipeline (Dat)

variable (V : (c : Dev nD) → (b : Ref sig .tc) → Buf (Elt Ideal) ((c : Thread nD τ).loc b))

theorem edge_origin : (![0, 0] : Fin 2 → Nat) = fun _ => 0 := funext fun a => by fin_cases a <;> rfl

/-- The block indices at point t: row block t of the five edge arrays, the one block of each grouping matrix. -/
theorem edge_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row r of point t's block of the key rows is row 4000 t + r of the array. -/
theorem key_block_read (c : Dev nD) (t : Fin cfg0.N) (r : Fin 4000) (k : Fin 128) (R : Fin 800000)
    (hR : R.val = 4000 * t.val + r.val) :
    (iblk0 V c 0 t : Vec Ideal S4000x128 .bf16) (ix2 r k) = (V c (Pipeline.arrRef spec0 0) : SE128.Idx → EReal) (ix2 R k) := by
  have e := edge_idx_facts t
  unfold iblk0
  rw [View.read_apply]
  show V c (Pipeline.arrRef spec0 0) (((cfg0.win 0).blk t).view.emb (ix2 r k)) = _
  refine congrArg _ (funext fun a => Fin.ext ?_)
  match a with
  | ⟨0, _⟩ => show win0_0.index t (0 : Fin 2) * 4000 + 1 * r.val = R.val; omega
  | ⟨1, _⟩ => show win0_0.index t (1 : Fin 2) * 128 + 1 * k.val = k.val; omega

/-- Row r of point t's block of the query rows is row 4000 t + r of the array. -/
theorem query_block_read (c : Dev nD) (t : Fin cfg0.N) (r : Fin 4000) (k : Fin 128) (R : Fin 800000)
    (hR : R.val = 4000 * t.val + r.val) :
    (iblk0 V c 1 t : Vec Ideal S4000x128 .bf16) (ix2 r k) = (V c (Pipeline.arrRef spec0 1) : SE128.Idx → EReal) (ix2 R k) := by
  have e := edge_idx_facts t
  unfold iblk0
  rw [View.read_apply]
  show V c (Pipeline.arrRef spec0 1) (((cfg0.win 1).blk t).view.emb (ix2 r k)) = _
  refine congrArg _ (funext fun a => Fin.ext ?_)
  match a with
  | ⟨0, _⟩ => show win0_1.index t (0 : Fin 2) * 4000 + 1 * r.val = R.val; omega
  | ⟨1, _⟩ => show win0_1.index t (1 : Fin 2) * 128 + 1 * k.val = k.val; omega

/-- Row r of point t's block of the value rows is row 4000 t + r of the array. -/
theorem value_block_read (c : Dev nD) (t : Fin cfg0.N) (r : Fin 4000) (k : Fin 128) (R : Fin 800000)
    (hR : R.val = 4000 * t.val + r.val) :
    (iblk0 V c 2 t : Vec Ideal S4000x128 .bf16) (ix2 r k) = (V c (Pipeline.arrRef spec0 2) : SE128.Idx → EReal) (ix2 R k) := by
  have e := edge_idx_facts t
  unfold iblk0
  rw [View.read_apply]
  show V c (Pipeline.arrRef spec0 2) (((cfg0.win 2).blk t).view.emb (ix2 r k)) = _
  refine congrArg _ (funext fun a => Fin.ext ?_)
  match a with
  | ⟨0, _⟩ => show win0_2.index t (0 : Fin 2) * 4000 + 1 * r.val = R.val; omega
  | ⟨1, _⟩ => show win0_2.index t (1 : Fin 2) * 128 + 1 * k.val = k.val; omega

/-- Every point's block of the grouping matrix is the matrix. -/
theorem g_block_read (c : Dev nD) (t : Fin cfg0.N) (r : Fin 128) (k : Fin 8) :
    (iblk0 V c 3 t : Vec Ideal S128x8 .f32) (ix2 r k) = (V c (Pipeline.arrRef spec0 3) : SG.Idx → EReal) (ix2 r k) := by
  have e := edge_idx_facts t
  unfold iblk0
  rw [View.read_apply]
  show V c (Pipeline.arrRef spec0 3) (((cfg0.win 3).blk t).view.emb (ix2 r k)) = _
  refine congrArg _ (funext fun a => Fin.ext ?_)
  match a with
  | ⟨0, _⟩ => show win0_3.index t (0 : Fin 2) * 128 + 1 * r.val = r.val; omega
  | ⟨1, _⟩ => show win0_3.index t (1 : Fin 2) * 8 + 1 * k.val = k.val; omega

/-- Every point's block of the transposed grouping matrix is the matrix. -/
theorem gt_block_read (c : Dev nD) (t : Fin cfg0.N) (r : Fin 8) (k : Fin 128) :
    (iblk0 V c 4 t : Vec Ideal S8x128 .f32) (ix2 r k) = (V c (Pipeline.arrRef spec0 4) : SGT.Idx → EReal) (ix2 r k) := by
  have e := edge_idx_facts t
  unfold iblk0
  rw [View.read_apply]
  show V c (Pipeline.arrRef spec0 4) (((cfg0.win 4).blk t).view.emb (ix2 r k)) = _
  refine congrArg _ (funext fun a => Fin.ext ?_)
  match a with
  | ⟨0, _⟩ => show win0_4.index t (0 : Fin 2) * 8 + 1 * r.val = r.val; omega
  | ⟨1, _⟩ => show win0_4.index t (1 : Fin 2) * 128 + 1 * k.val = k.val; omega

/-- The scores point t computes for its edge r are those of edge 4000 t + r of the arrays the launch found. -/
theorem score_point (c : Dev nD) (t : Fin cfg0.N) (r : Fin 4000) (h : Fin 8) (R : Fin 800000)
    (hR : R.val = 4000 * t.val + r.val) :
    k0_pay1 (F := Ideal) (iblk0 V c 0 t) (iblk0 V c 1 t) (iblk0 V c 3 t) (ix2 r h)
      = scoreOf (V c (Pipeline.arrRef spec0 0)) (V c (Pipeline.arrRef spec0 1)) (V c (Pipeline.arrRef spec0 3)) (ix2 R h) := by
  refine (score_block_apply _ _ _ r h).trans ?_
  unfold scoreOf
  refine congrArg Ideal.exp (congrArg (min hi) (congrArg (max lo) (Finset.sum_congr rfl fun k _ => ?_)))
  rw [key_block_read V c t r k R hR, query_block_read V c t r k R hR, g_block_read V c t k h] <;> rfl

end Cert.KernelIdeal.RegionValue

end
-- ==== Proof.ScoreArray.lean ====
/-
  The scores of the first launch, from blocks to the array: point t writes back rows 4000 t … 4000 t + 3999 of the
  scores of the arrays the launch found; the 200 blocks cover the 800000 rows.
-/
import proofs.«136254_j36404142800928_2_alg».proof.Proof.Spec
import proofs.«136254_j36404142800928_2_alg».proof.Proof.EdgeBlockRead
import proofs.«136254_j36404142800928_2_alg».proof.Proof.Gen.KernelIdeal.Frame
import Idealize.ShloMosaic.Lib.Pipeline.Value

noncomputable section

open scoped BigOperators

namespace Cert.KernelIdeal.RegionValue

open Idealize.ShloMosaic Idealize.ShloMosaic.ValueIdx
open Cert.KernelIdeal Cert.KernelIdeal.Gen Cert.EdgeAttn

open Idealize.ShloMosaic.TcCoe Idealize.SL.Sem
open Idealize.ShloMosaic.Pipeline (Dat)

variable (V : (c : Dev nD) → (b : Ref sig .tc) → Buf (Elt Ideal) ((c : Thread nD τ).loc b))

/-- What point t writes back is block t of the scores of the arrays the launch found. -/
theorem score_flushed (c : Dev nD) (t : Fin cfg0.N) :
    (dat0 (F := Ideal) V c).flushed 6 t = ((cfg0.win 6).blk t).view.read (Elt Ideal)
      (scoreOf (V c (Pipeline.arrRef spec0 0)) (V c (Pipeline.arrRef spec0 1)) (V c (Pipeline.arrRef spec0 3))) := by
  show (cfg0.win 6).cut (grid0.coords t) ((dat0 V c).after 6 t) = _
  rw [after0_6]
  unfold out0_6
  rw [View.canon_unit_zero edge_origin]
  simp only [View.ld_unit_zero (S := S4000x128) edge_origin, View.ld_unit_zero (S := S128x8) edge_origin]
  funext j
  obtain ⟨r, h, rfl⟩ : ∃ (r : Fin 4000) (h : Fin 8), j = ix2 r h := ⟨j 0, j 1, eq_ix2 j⟩
  have e := edge_idx_facts t
  have hN : grid0.N = 200 := N_0
  have ht : t.val < grid0.N := t.isLt
  have hr := r.isLt
  obtain ⟨R, hR⟩ : ∃ R : Fin 800000, R.val = 4000 * t.val + r.val := ⟨⟨4000 * t.val + r.val, by omega⟩, rfl⟩
  have hemb : ((cfg0.win 6).blk t).view.emb (ix2 r h) = ix2 R h := by
    funext a; apply Fin.ext
    match a with
    | ⟨0, _⟩ => show win0_6.index t (0 : Fin 2) * 4000 + 1 * r.val = R.val; omega
    | ⟨1, _⟩ => show win0_6.index t (1 : Fin 2) * 8 + 1 * h.val = h.val; omega
  show k0_pay1 (F := Ideal) (iblk0 V c 0 t) (iblk0 V c 1 t) (iblk0 V c 3 t) (ix2 r h)
    = scoreOf (V c (Pipeline.arrRef spec0 0)) (V c (Pipeline.arrRef spec0 1)) (V c (Pipeline.arrRef spec0 3))
        (((cfg0.win 6).blk t).view.emb (ix2 r h))
  rw [hemb]
  exact score_point V c t r h R hR

/-- An index of the score array is in point t's block iff its row lies in rows 4000 t … 4000 t + 3999. -/
theorem score_mem_blk (t : Fin cfg0.N) (i : S800000x8.Idx) :
    i ∈ ((cfg0.win 6).blk t).view.set ↔ ∀ a : Fin 2, win0_6.index t a * S4000x8.size a ≤ (i a).val
      ∧ (i a).val < win0_6.index t a * S4000x8.size a + S4000x8.size a := by
  show i ∈ ((View.whole main_v31_1).slice (win0_6.rect t)).set ↔ _
  rw [View.set_slice_whole, Rect.mem_set_unit]
  exact Iff.rfl

/-- Row e of the score array is written back by point e / 4000. -/
theorem score_cover (i : S800000x8.Idx) :
    ∃ t : Fin cfg0.N, (cfg0.win 6).flush t = true ∧ i ∈ ((cfg0.win 6).blk t).view.set := by
  have hi0 : (i 0).val < 800000 := idx2_lt0 i
  have hi1 : (i 1).val < 8 := idx2_lt1 i
  obtain ⟨t, ht⟩ : ∃ t : Fin cfg0.N, t.val = (i 0).val / 4000 :=
    ⟨⟨(i 0).val / 4000, by have hN : grid0.N = 200 := N_0; show _ < grid0.N; omega⟩, rfl⟩
  have e := edge_idx_facts t
  refine ⟨t, flush0_6 t, ?_⟩
  rw [score_mem_blk]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 8 ≤ (i 1).val ∧ (i 1).val < win0_6.index t (1 : Fin 2) * 8 + 8
    omega

/-- THE SCORE ARRAY of the first launch: the scores of the arrays the launch found. -/
theorem score_arr (c : Dev nD) :
    (dat0 (F := Ideal) V c).arrAt 6 cfg0.N
      = scoreOf (V c (Pipeline.arrRef spec0 0)) (V c (Pipeline.arrRef spec0 1)) (V c (Pipeline.arrRef spec0 3)) :=
  (dat0 (F := Ideal) V c).arrAt_eq_of_cover 6 _ (fun t _ => score_flushed V c t) score_cover

end Cert.KernelIdeal.RegionValue

end
-- ==== Proof.MsgArray.lean ====
/-
  The messages of the first launch, from blocks to the array: point t writes back rows 4000 t … 4000 t + 3999 of the
  messages of the arrays the launch found; the 200 blocks cover the 800000 rows.
-/
import proofs.«136254_j36404142800928_2_alg».proof.Proof.Spec
import proofs.«136254_j36404142800928_2_alg».proof.Proof.EdgeBlockRead
import proofs.«136254_j36404142800928_2_alg».proof.Proof.Gen.KernelIdeal.Frame
import Idealize.ShloMosaic.Lib.Pipeline.Value

noncomputable section

open scoped BigOperators

namespace Cert.KernelIdeal.RegionValue

open Idealize.ShloMosaic Idealize.ShloMosaic.ValueIdx
open Cert.KernelIdeal Cert.KernelIdeal.Gen Cert.EdgeAttn

open Idealize.ShloMosaic.TcCoe Idealize.SL.Sem
open Idealize.ShloMosaic.Pipeline (Dat)

variable (V : (c : Dev nD) → (b : Ref sig .tc) → Buf (Elt Ideal) ((c : Thread nD τ).loc b))

/-- Equal summands give equal scaled sums. -/
theorem mul_sum_congr (a : EReal) (f g : Fin 8 → EReal) (h : ∀ i, f i = g i) : a * ∑ i, f i = a * ∑ i, g i :=
  congrArg (a * ·) (Finset.sum_congr rfl fun i _ => h i)

/-- What point t writes back is block t of the messages of the arrays the launch found. -/
theorem msg_flushed (c : Dev nD) (t : Fin cfg0.N) :
    (dat0 (F := Ideal) V c).flushed 5 t = ((cfg0.win 5).blk t).view.read (Elt Ideal)
      (msgOf (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero edge_origin]
  simp only [View.ld_unit_zero (S := S4000x128) edge_origin, View.ld_unit_zero (S := S128x8) edge_origin,
    View.ld_unit_zero (S := S8x128) edge_origin]
  funext j
  obtain ⟨r, q, rfl⟩ : ∃ (r : Fin 4000) (q : Fin 128), j = ix2 r q := ⟨j 0, j 1, eq_ix2 j⟩
  have e := edge_idx_facts t
  have hN : grid0.N = 200 := N_0
  have ht : t.val < grid0.N := t.isLt
  have hr := r.isLt
  obtain ⟨R, hR⟩ : ∃ R : Fin 800000, R.val = 4000 * t.val + r.val := ⟨⟨4000 * t.val + r.val, by omega⟩, rfl⟩
  have hemb : ((cfg0.win 5).blk t).view.emb (ix2 r q) = ix2 R q := by
    funext a; apply Fin.ext
    match a with
    | ⟨0, _⟩ => show win0_5.index t (0 : Fin 2) * 4000 + 1 * r.val = R.val; omega
    | ⟨1, _⟩ => show win0_5.index t (1 : Fin 2) * 128 + 1 * q.val = q.val; omega
  show k0_pay2 (F := Ideal) (iblk0 V c 0 t) (iblk0 V c 1 t) (iblk0 V c 2 t) (iblk0 V c 3 t) (iblk0 V c 4 t) (ix2 r q)
    = msgOf (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb (ix2 r q))
  rw [hemb]
  refine (msg_block_apply _ _ _ _ _ r q).trans ?_
  unfold msgOf
  rw [value_block_read V c t r q R hR]
  refine mul_sum_congr _ _ _ fun h => ?_
  rw [score_point V c t r h R hR, gt_block_read V c t h q] <;> rfl

/-- An index of the message array is in point t's block iff its row lies in rows 4000 t … 4000 t + 3999. -/
theorem msg_mem_blk (t : Fin cfg0.N) (i : S800000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v31_0).slice (win0_5.rect t)).set ↔ _
  rw [View.set_slice_whole, Rect.mem_set_unit]
  exact Iff.rfl

/-- Row e of the message array is written back by point e / 4000. -/
theorem msg_cover (i : S800000x128.Idx) :
    ∃ t : Fin cfg0.N, (cfg0.win 5).flush t = true ∧ i ∈ ((cfg0.win 5).blk t).view.set := by
  have hi0 : (i 0).val < 800000 := idx2_lt0 i
  have hi1 : (i 1).val < 128 := idx2_lt1 i
  obtain ⟨t, ht⟩ : ∃ t : Fin cfg0.N, t.val = (i 0).val / 4000 :=
    ⟨⟨(i 0).val / 4000, by have hN : grid0.N = 200 := N_0; show _ < grid0.N; omega⟩, rfl⟩
  have e := edge_idx_facts t
  refine ⟨t, flush0_5 t, ?_⟩
  rw [msg_mem_blk]
  intro a
  match a with
  | ⟨0, _⟩ =>
    show win0_5.index t (0 : Fin 2) * 4000 ≤ (i 0).val ∧ (i 0).val < win0_5.index t (0 : Fin 2) * 4000 + 4000
    omega
  | ⟨1, _⟩ =>
    show win0_5.index t (1 : Fin 2) * 128 ≤ (i 1).val ∧ (i 1).val < win0_5.index t (1 : Fin 2) * 128 + 128
    omega

/-- THE MESSAGE ARRAY of the first launch: the messages of the arrays the launch found. -/
theorem msg_arr (c : Dev nD) :
    (dat0 (F := Ideal) V c).arrAt 5 cfg0.N
      = msgOf (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => msg_flushed V c t) msg_cover

end Cert.KernelIdeal.RegionValue

end
-- ==== Proof.NodeBlockValue.lean ====
/-
  The arithmetic of the second launch on one block of 5000 nodes, entry by entry on the extended reals: the weighted
  sum at node r and feature c divided by the row of normalisers contracted with the transposed grouping matrix, plus ε.
-/
import proofs.«136254_j36404142800928_2_alg».proof.Proof.Spec
import proofs.«136254_j36404142800928_2_alg».proof.Proof.PlainProduct
import proofs.«136254_j36404142800928_2_alg».proof.Proof.Gen.KernelIdeal.Skeleton
import Idealize.ShloMosaic.Lib.Pipeline.Value

noncomputable section

open scoped BigOperators

namespace Cert.KernelIdeal.RegionValue

open Idealize.ShloMosaic Idealize.ShloMosaic.ValueIdx
open Cert.KernelIdeal Cert.KernelIdeal.Gen Cert.EdgeAttn

/-- One block's quotients, entry by entry. -/
theorem quot_block_apply (z : FVec Ideal S5000x8 .f32) (gt : FVec Ideal S8x128 .f32) (wv : FVec Ideal S5000x128 .f32)
    (r : Fin 5000) (c : Fin 128) :
    k1_pay1 (F := Ideal) z gt wv (ix2 r c)
      = Ideal.div (wv (ix2 r c)) ((∑ h : Fin 8, z (ix2 r h) * gt (ix2 h c)) + eps) := by
  unfold k1_pay1
  simp only [shapeCast_self]
  refine congrArg (Ideal.div (wv (ix2 r c))) (congrArg (· + eps) ?_)
  exact matmul_plain_zero_apply dot_S5000x8_S8x128_S5000x128_1_0_0_1_n_n_wf (some .fp32) _ gt r c

end Cert.KernelIdeal.RegionValue

end
-- ==== Proof.NodeArray.lean ====
/-
  The second launch, from blocks to the array: point t of its grid of 10 reads rows 5000 t … 5000 t + 4999 of the
  weighted sums and of the normalisers and the whole transposed grouping matrix, and writes back the same rows of the
  quotient; the ten blocks cover the 50000 rows, so the result array ends holding the quotient of the arrays the launch
  found.
-/
import proofs.«136254_j36404142800928_2_alg».proof.Proof.Spec
import proofs.«136254_j36404142800928_2_alg».proof.Proof.NodeBlockValue
import proofs.«136254_j36404142800928_2_alg».proof.Proof.Gen.KernelIdeal.Frame
import Idealize.ShloMosaic.Lib.Pipeline.Value

noncomputable section

open scoped BigOperators

namespace Cert.KernelIdeal.RegionValue

open Idealize.ShloMosaic Idealize.ShloMosaic.ValueIdx
open Cert.KernelIdeal Cert.KernelIdeal.Gen Cert.EdgeAttn

open Idealize.ShloMosaic.TcCoe Idealize.SL.Sem
open Idealize.ShloMosaic.Pipeline (Dat)

variable (V : (c : Dev nD) → (b : Ref sig .tc) → Buf (Elt Ideal) ((c : Thread nD τ).loc b))

theorem node_origin : (![0, 0] : Fin 2 → Nat) = fun _ => 0 := funext fun a => by fin_cases a <;> rfl

/-- The block indices at point t: row block t of the three node arrays, the one block of the grouping matrix. -/
theorem node_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of point t's block of the weighted sums is row 5000 t + r of the array. -/
theorem wv_block_read (c : Dev nD) (t : Fin cfg1.N) (r : Fin 5000) (q : Fin 128) (R : Fin 50000)
    (hR : R.val = 5000 * t.val + r.val) :
    (iblk1 V c 0 t : Vec Ideal S5000x128 .f32) (ix2 r q) = (V c (Pipeline.arrRef spec1 0) : SN128.Idx → EReal) (ix2 R q) := by
  obtain ⟨e0, e1, -⟩ := node_idx_facts t
  unfold iblk1
  rw [View.read_apply]
  show V c (Pipeline.arrRef spec1 0) (((cfg1.win 0).blk t).view.emb (ix2 r q)) = _
  refine congrArg _ (funext fun a => Fin.ext ?_)
  match a with
  | ⟨0, _⟩ => show win1_0.index t (0 : Fin 2) * 5000 + 1 * r.val = R.val; omega
  | ⟨1, _⟩ => show win1_0.index t (1 : Fin 2) * 128 + 1 * q.val = q.val; omega

/-- Row r of point t's block of the normalisers is row 5000 t + r of the array. -/
theorem z_block_read (c : Dev nD) (t : Fin cfg1.N) (r : Fin 5000) (h : Fin 8) (R : Fin 50000)
    (hR : R.val = 5000 * t.val + r.val) :
    (iblk1 V c 1 t : Vec Ideal S5000x8 .f32) (ix2 r h) = (V c (Pipeline.arrRef spec1 1) : SN8.Idx → EReal) (ix2 R h) := by
  obtain ⟨-, -, e0, e1, -⟩ := node_idx_facts t
  unfold iblk1
  rw [View.read_apply]
  show V c (Pipeline.arrRef spec1 1) (((cfg1.win 1).blk t).view.emb (ix2 r h)) = _
  refine congrArg _ (funext fun a => Fin.ext ?_)
  match a with
  | ⟨0, _⟩ => show win1_1.index t (0 : Fin 2) * 5000 + 1 * r.val = R.val; omega
  | ⟨1, _⟩ => show win1_1.index t (1 : Fin 2) * 8 + 1 * h.val = h.val; omega

/-- Every point's block of the transposed grouping matrix is the matrix. -/
theorem node_gt_block_read (c : Dev nD) (t : Fin cfg1.N) (h : Fin 8) (q : Fin 128) :
    (iblk1 V c 2 t : Vec Ideal S8x128 .f32) (ix2 h q) = (V c (Pipeline.arrRef spec1 2) : SGT.Idx → EReal) (ix2 h q) := by
  obtain ⟨-, -, -, -, e0, e1, -⟩ := node_idx_facts t
  unfold iblk1
  rw [View.read_apply]
  show V c (Pipeline.arrRef spec1 2) (((cfg1.win 2).blk t).view.emb (ix2 h q)) = _
  refine congrArg _ (funext fun a => Fin.ext ?_)
  match a with
  | ⟨0, _⟩ => show win1_2.index t (0 : Fin 2) * 8 + 1 * h.val = h.val; omega
  | ⟨1, _⟩ => show win1_2.index t (1 : Fin 2) * 128 + 1 * q.val = q.val; omega

/-- What point t writes back is block t of the quotient of the arrays the launch found. -/
theorem quot_flushed (c : Dev nD) (t : Fin cfg1.N) :
    (dat1 (F := Ideal) V c).flushed 3 t = ((cfg1.win 3).blk t).view.read (Elt Ideal)
      (divOf (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero node_origin]
  simp only [View.ld_unit_zero (S := S5000x8) node_origin, View.ld_unit_zero (S := S8x128) node_origin,
    View.ld_unit_zero (S := S5000x128) node_origin]
  funext j
  obtain ⟨r, q, rfl⟩ : ∃ (r : Fin 5000) (q : Fin 128), j = ix2 r q := ⟨j 0, j 1, eq_ix2 j⟩
  obtain ⟨-, -, -, -, -, -, e0, e1⟩ := node_idx_facts t
  have hN : grid1.N = 10 := N_1
  have ht : t.val < grid1.N := t.isLt
  have hr := r.isLt
  obtain ⟨R, hR⟩ : ∃ R : Fin 50000, R.val = 5000 * t.val + r.val := ⟨⟨5000 * t.val + r.val, by omega⟩, rfl⟩
  have hi : ((cfg1.win 3).blk t).view.emb (ix2 r q) = ix2 R q := by
    funext a; apply Fin.ext
    match a with
    | ⟨0, _⟩ => show win1_3.index t (0 : Fin 2) * 5000 + 1 * r.val = R.val; omega
    | ⟨1, _⟩ => show win1_3.index t (1 : Fin 2) * 128 + 1 * q.val = q.val; omega
  show k1_pay1 (F := Ideal) (iblk1 V c 1 t) (iblk1 V c 2 t) (iblk1 V c 0 t) (ix2 r q)
    = divOf (V c (Pipeline.arrRef spec1 0)) (V c (Pipeline.arrRef spec1 1)) (V c (Pipeline.arrRef spec1 2))
        (((cfg1.win 3).blk t).view.emb (ix2 r q))
  rw [hi]
  refine (quot_block_apply _ _ _ r q).trans ?_
  unfold divOf
  rw [wv_block_read V c t r q R hR]
  refine congrArg (Ideal.div _) (congrArg (· + eps) (Finset.sum_congr rfl fun h _ => ?_))
  rw [z_block_read V c t r h R hR, node_gt_block_read V c t h q]

/-- An index of the result array is in point t's block iff its row lies in rows 5000 t … 5000 t + 4999. -/
theorem quot_mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v38).slice (win1_3.rect t)).set ↔ _
  rw [View.set_slice_whole, Rect.mem_set_unit]
  exact Iff.rfl

/-- Row n of the result is written back by point n / 5000. -/
theorem quot_cover (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, by have hN : grid1.N = 10 := N_1; show _ < grid1.N; omega⟩, rfl⟩
  obtain ⟨-, -, -, -, -, -, e0, e1⟩ := node_idx_facts t
  refine ⟨t, flush1_3 t, ?_⟩
  rw [quot_mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- THE RESULT ARRAY of the second launch: the quotient of the arrays the launch found. -/
theorem quot_arr (c : Dev nD) :
    (dat1 (F := Ideal) V c).arrAt 3 cfg1.N
      = divOf (V c (Pipeline.arrRef spec1 0)) (V c (Pipeline.arrRef spec1 1)) (V c (Pipeline.arrRef spec1 2)) :=
  (dat1 (F := Ideal) V c).arrAt_eq_of_cover 3 _ (fun t _ => quot_flushed V c t) quot_cover

end Cert.KernelIdeal.RegionValue

end
-- ==== Proof.lean ====
/-
  Attention over the edges of a graph, aggregated at the destination nodes: a two-launch program against a plain one.

  Both programs take queries, keys and values (50000 nodes × 128 features, 8 heads of 16) and 800000 edges given as
  source and destination words. Per edge and head they clamp the scaled dot product of the key at the source and the
  query at the destination into [−5, 5] and exponentiate it (the score), weight the value at the source by its head's
  score (the message), sum messages and scores over the edges that share a destination word, and divide the two sums,
  with ε added to the divisor.

  The plain program works on [·, 8, 16] arrays, sums over the last axis and divides by 4. The two-launch program works on
  [·, 128] rows: its first launch forms the per-head sums and broadcasts them back by products with the 0/1 matrix
  "feature c lies in head h", scaling by ¼; the host forms the two segment sums; its second launch broadcasts the score
  sums with the same matrix and divides. On the extended reals a product with that matrix is the per-head sum or the
  per-head entry (x · 0 = 0, x · 1 = x for every x), a product with ¼ is a quotient by 4, a change of float format is the
  identity, and both programs derive their index arrays from the edge words by the same operations: the results are one
  array. No entry needs to be finite for this; the precondition is not opened.

  The three frames are the generated ones (the plain program's is its generated run with the result dropped); the
  idealization rewrote nothing, so `preserves` is `True`.
-/
import proofs.«136254_j36404142800928_2_alg».proof.Defs
import proofs.«136254_j36404142800928_2_alg».proof.Proof.Gen.Kernel
import proofs.«136254_j36404142800928_2_alg».proof.Proof.Gen.Kernel.Skeleton
import proofs.«136254_j36404142800928_2_alg».proof.Proof.Gen.Kernel.Launch
import proofs.«136254_j36404142800928_2_alg».proof.Proof.Gen.Kernel.Points
import proofs.«136254_j36404142800928_2_alg».proof.Proof.Gen.Kernel.Frame
import proofs.«136254_j36404142800928_2_alg».proof.Proof.Gen.KernelIdeal
import proofs.«136254_j36404142800928_2_alg».proof.Proof.Gen.KernelIdeal.Skeleton
import proofs.«136254_j36404142800928_2_alg».proof.Proof.Gen.KernelIdeal.Launch
import proofs.«136254_j36404142800928_2_alg».proof.Proof.Gen.KernelIdeal.Points
import proofs.«136254_j36404142800928_2_alg».proof.Proof.Gen.KernelIdeal.Frame
import proofs.«136254_j36404142800928_2_alg».proof.Proof.Gen.ReferenceIdeal
import proofs.«136254_j36404142800928_2_alg».proof.Proof.Gen.ReferenceIdeal.Run
import proofs.«136254_j36404142800928_2_alg».proof.Proof.Gen.ReferenceIdeal.Read
import proofs.«136254_j36404142800928_2_alg».proof.Proof.Gen.Pre_finite_inputs
import proofs.«136254_j36404142800928_2_alg».proof.Proof.Bridge
import proofs.«136254_j36404142800928_2_alg».proof.Proof.RefValue
import proofs.«136254_j36404142800928_2_alg».proof.Proof.ScoreArray
import proofs.«136254_j36404142800928_2_alg».proof.Proof.MsgArray
import proofs.«136254_j36404142800928_2_alg».proof.Proof.NodeArray
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- What the two launches leave in their output arrays, for any contents at their entry. -/
theorem regionFacts : Cert.KernelIdeal.Glue.RegionFacts :=
  ⟨Cert.KernelIdeal.RegionValue.msg_arr, Cert.KernelIdeal.RegionValue.score_arr, Cert.KernelIdeal.RegionValue.quot_arr⟩

/-- The two idealized programs end with equal results. -/
theorem algebraic : Cert.algebraic_KernelIdeal_ReferenceIdeal :=
  Bridge.algebraic_of regionFacts Cert.ReferenceIdeal.RefValue.ref_eq

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
